-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S128x32 .f32) (main_arg10 : FVec F S32 .f32) (main_v33 : IVec S_ 1) : IVec S_ 1 :=
  let main_v34 : FVec F S128x32 .f32 := Host.absf main_arg9
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x32 .f32) (main_arg10 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x32 .f32) (main_arg10 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S256 : Shape := ⟨1, ![256]⟩
abbrev S1x256 : Shape := ⟨2, ![1, 256]⟩
abbrev S256x128 : Shape := ⟨2, ![256, 128]⟩
abbrev S5000x256 : Shape := ⟨2, ![5000, 256]⟩
abbrev S256x1 : Shape := ⟨2, ![256, 1]⟩
abbrev S1x32 : Shape := ⟨2, ![1, 32]⟩
abbrev S256x32 : Shape := ⟨2, ![256, 32]⟩

abbrev nBuf : Space → Nat
  | .hbm => 103
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x32, .f32⟩
  | .hbm, ⟨10, _⟩ => ⟨S32, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000, .f32⟩
  | .hbm, ⟨45, _⟩ => ⟨S100000x1, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S1600000x1, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S256, .i32⟩
  | .hbm, ⟨85, _⟩ => ⟨S1x256, .i32⟩
  | .hbm, ⟨86, _⟩ => ⟨S100000x1, .i32⟩
  | .hbm, ⟨87, _⟩ => ⟨S256x128, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S256, .f32⟩
  | .hbm, ⟨92, _⟩ => ⟨S100000x1, .i32⟩
  | .hbm, ⟨93, _⟩ => ⟨S256, .f32⟩
  | .hbm, ⟨94, _⟩ => ⟨S_, .f32⟩
  | .hbm, ⟨95, _⟩ => ⟨S256, .f32⟩
  | .hbm, ⟨96, _⟩ => ⟨S256, .f32⟩
  | .hbm, ⟨97, _⟩ => ⟨S256x1, .f32⟩
  | .hbm, ⟨98, _⟩ => ⟨S256x128, .f32⟩
  | .hbm, ⟨99, _⟩ => ⟨S256x128, .f32⟩
  | .hbm, ⟨100, _⟩ => ⟨S1x128, .f32⟩
  | .hbm, ⟨101, _⟩ => ⟨S1x32, .f32⟩
  | .hbm, ⟨102, _⟩ => ⟨S256x32, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .i32⟩
  | .local _ .vmem, ⟨31, _⟩ => ⟨S5000x1, .i32⟩
  | .local _ .vmem, ⟨32, _⟩ => ⟨S1x256, .i32⟩
  | .local _ .vmem, ⟨33, _⟩ => ⟨S256x128, .f32⟩
  | .local _ .vmem, ⟨34, _⟩ => ⟨S256x128, .f32⟩
  | .local _ .vmem, ⟨35, _⟩ => ⟨S128x128, .f32⟩
  | .local _ .vmem, ⟨36, _⟩ => ⟨S1x128, .f32⟩
  | .local _ .vmem, ⟨37, _⟩ => ⟨S128x32, .f32⟩
  | .local _ .vmem, ⟨38, _⟩ => ⟨S1x32, .f32⟩
  | .local _ .vmem, ⟨39, _⟩ => ⟨S256x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc5_stg0_0 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc5_sem0_0 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x256 .i32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S256x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x32 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S256_S1x256 : S256.ShapeCasts S1x256
  inb_S256x128_S256x128_0_0 : ∀ a, (![0, 0] : Fin 2 → Nat) a + S256x128.size a ≤ S256x128.size a
  h_S256x128 : 0 < S256x128.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S5000x1_S5000x256 : S5000x1.Broadcasts S5000x256
  broadcasts_S1x256_S5000x256 : S1x256.Broadcasts S5000x256
  natLt_1_32 : 1 < 32
  shapeCasts_S256x128_S256x128 : S256x128.ShapeCasts S256x128
  bcast_S_S256 : S_.BroadcastsInDim S256 (![] : Fin 0 → Fin S256.rank)
  bcast_S100000_S100000x1_0 : S100000.BroadcastsInDim S100000x1 (![0] : Fin 1 → Fin S100000x1.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  shapeCasts_S32_S1x32 : S32.ShapeCasts S1x32
  broadcasts_S1x128_S256x128 : S1x128.Broadcasts S256x128
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  inb_S256x32_S256x32_0_0 : ∀ a, (![0, 0] : Fin 2 → Nat) a + S256x32.size a ≤ S256x32.size a
  h_S256x32 : 0 < S256x32.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x256_S5000x128_S256x128_0_0_1_1_n_n_wf : DotDims.WF S5000x256 S5000x128 S256x128 [0] [0] [1] [1] [] []
  scatter_S256_S100000x1_S100000_n_0_0_1_wf : ScatterDims.WF S256 S100000x1 S100000 [] [0] [0] 1
  dot_S256x128_S128x128_S256x128_1_0_0_1_n_n_wf : DotDims.WF S256x128 S128x128 S256x128 [1] [0] [0] [1] [] []
  dot_S256x128_S128x32_S256x32_1_0_0_1_n_n_wf : DotDims.WF S256x128 S128x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .i32 = 32 ∨ (Rect.block (s := S100000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .i32 = 32 ∨ (Rect.block (s := S1x256) S1x256.size (cc4_transform_2 i) (hinb4_2 i)).WholeWords (EltTy.packing .i32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x128.size a ≤ S256x128.size a
  hwx4_3 : ∀ i : grid4.Coords, EltTy.bits .f32 = 32 ∨ (Rect.block (s := S256x128) S256x128.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S256x128.size a ≤ S256x128.size a
  hwx5_0 : ∀ i : grid5.Coords, EltTy.bits .f32 = 32 ∨ (Rect.block (s := S256x128) S256x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x32.size a ≤ S128x32.size a
  hwx5_3 : ∀ i : grid5.Coords, EltTy.bits .f32 = 32 ∨ (Rect.block (s := S128x32) S128x32.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x32.size a ≤ S1x32.size a
  hwx5_4 : ∀ i : grid5.Coords, EltTy.bits .f32 = 32 ∨ (Rect.block (s := S1x32) S1x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x32.size a ≤ S256x32.size a
  hwx5_5 : ∀ i : grid5.Coords, EltTy.bits .f32 = 32 ∨ (Rect.block (s := S256x32) S256x32.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x32_S256x32_1_0_0_1_n_n : DotDims S256x128 S128x32 S256x32 where
  lhsContracting := [1]
  rhsContracting := [0]
  lhsNonContracting := [0]
  rhsNonContracting := [1]
  lhsBatch := []
  rhsBatch := []
  wf := dot_S256x128_S128x32_S256x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v62) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v61) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S256x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v72) S256x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v73) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg9) S128x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v74) S1x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v75) S256x32.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S256x32 : Shape := ⟨2, ![256, 32]⟩
abbrev S1x32 : Shape := ⟨2, ![1, 32]⟩

abbrev nBuf : Space → Nat
  | .hbm => 156
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x32, .f32⟩
  | 10 => ⟨S32, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S_, .f32⟩
  | 17 => ⟨S1600000, .f32⟩
  | 18 => ⟨S_, .f32⟩
  | 19 => ⟨S100000, .f32⟩
  | 20 => ⟨S1600000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S1600000x1, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x128, .f32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .f32⟩
  | 74 => ⟨S1600000, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000, .f32⟩
  | 101 => ⟨S1600000, .f32⟩
  | 102 => ⟨S1600000x1, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x128, .f32⟩
  | 112 => ⟨S1600000x128, .f32⟩
  | 113 => ⟨S1600000x128, .f32⟩
  | 114 => ⟨S_, .f32⟩
  | 115 => ⟨S100000x128, .f32⟩
  | 116 => ⟨S1600000x1, .i32⟩
  | 117 => ⟨S100000x128, .f32⟩
  | 118 => ⟨S100000, .f32⟩
  | 119 => ⟨S100000x1, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S256x128, .f32⟩
  | 3 => ⟨S100000x1, .i32⟩
  | 4 => ⟨S256x128, .f32⟩
  | 5 => ⟨S_, .f32⟩
  | 6 => ⟨S100000, .f32⟩
  | 7 => ⟨S_, .f32⟩
  | 8 => ⟨S256, .f32⟩
  | 9 => ⟨S100000x1, .i32⟩
  | 10 => ⟨S256, .f32⟩
  | 11 => ⟨S_, .f32⟩
  | 12 => ⟨S256, .f32⟩
  | 13 => ⟨S256, .f32⟩
  | 14 => ⟨S256x1, .f32⟩
  | 15 => ⟨S256x128, .f32⟩
  | 16 => ⟨S256x128, .f32⟩
  | 17 => ⟨S256x128, .f32⟩
  | 18 => ⟨S1x128, .f32⟩
  | 19 => ⟨S256x128, .f32⟩
  | 20 => ⟨S256x128, .f32⟩
  | 21 => ⟨S_, .f32⟩
  | 22 => ⟨S256x128, .f32⟩
  | 23 => ⟨S256x128, .f32⟩
  | 24 => ⟨S256x32, .f32⟩
  | 25 => ⟨S1x32, .f32⟩
  | 26 => ⟨S256x32, .f32⟩
  | 27 => ⟨S256x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_c_15 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_19 : Ref sig .tc := ⟨.hbm, 133, rfl⟩
abbrev main_v97 : Ref sig .tc := ⟨.hbm, 134, rfl⟩
abbrev main_cst_20 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_21 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_call2_cst : Ref sig .tc := ⟨.hbm, 149, rfl⟩
abbrev main_call2_v0 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  bcast_S32_S1x32_1 : S32.BroadcastsInDim S1x32 (![1] : Fin 1 → Fin S1x32.rank)
  bcast_S1x32_S256x32_0_1 : S1x32.BroadcastsInDim S256x32 (![0, 1] : Fin 2 → Fin S256x32.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x128_S256x128_1_0_0_1_n_n_wf : DotDims.WF S256x128 S128x128 S256x128 [1] [0] [0] [1] [] []
  dot_S256x128_S128x32_S256x32_1_0_0_1_n_n_wf : DotDims.WF S256x128 S128x32 S256x32 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x32_S256x32_1_0_0_1_n_n : DotDims S256x128 S128x32 S256x32 where
  lhsContracting := [1]
  rhsContracting := [0]
  lhsNonContracting := [0]
  rhsNonContracting := [1]
  lhsBatch := []
  rhsBatch := []
  wf := dot_S256x128_S128x32_S256x32_1_0_0_1_n_n_wf

class Facts : Prop extends Facts₀ where

variable [Facts]
-- ==== Proof.WholeRun.lean ====
/-
  The idealized kernel program run from any memory: every weakly fair execution terminates without a fault, its eleven
  argument arrays end as they started, and its result array ends at the contents the last boundary of the program's
  fold assigns it. The program is six kernel launches among stretches of host operations; the fold follows the array
  contents from the launch memory through each stretch and each launch, and the final state agrees with its last stage
  on every array that lives for the whole program — in particular on the result.
-/
import proofs.«171345_j52037823758431_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run, with the result array named: it ends at the last stage of the fold, and the arguments are unchanged. -/
theorem run_result : θ_run defs (onTc (τ := τ) (main (F := F))) ⟨m, fun _ => 0, ρ⟩ (fun r => ∀ c : Dev nD,
      r.2.mem ((c.tc : Thread nD τ).loc main_v75) = W11 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v75 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.Whole

end
-- ==== Proof.LibOneHot.lean ====
/-
  One-hot products as selected sums, over the extended reals. A factor that is one where a condition holds and zero
  elsewhere, multiplied into a finite sum, keeps exactly the terms where the condition holds — with no finiteness
  assumption, because in the extended reals `0 · x = 0` and `1 · x = x` for every `x`, the infinities included. The
  factor a kernel builds by comparing two 32-bit integers for equality, widening the bit and converting it to a
  float is that zero-or-one number; and a 32-bit word equals the word of a natural number below `2³¹` exactly when
  its signed value is that number. Together: a contraction against a one-hot matrix built from integer labels is
  the sum over the rows whose label, read signed, is the given number — the shape a scatter-add read at an index has.
-/
import Idealize.ShloMosaic.PureOps.Ideal

noncomputable section

namespace Cert.OneHot

open Idealize.ShloMosaic

/-- A product with a zero-or-one factor keeps the terms where the condition holds. -/
theorem sum_indicator_mul {ι : Type} [Fintype ι] (p : ι → Prop) [DecidablePred p] (h : ι → EReal) :
    ∑ n, (if p n then (1 : EReal) else 0) * h n = ∑ n ∈ Finset.univ.filter p, h n := by
  rw [Finset.sum_filter]
  refine Finset.sum_congr rfl fun n _ => ?_
  split
  · exact one_mul _
  · exact zero_mul _

/-- The comparison "equal" of two 32-bit words, widened to 32 bits and converted to a number, is one when the words
    are equal and zero when they are not. -/
theorem eq_mask (a b : BitVec 32) :
    (FloatOps.sitofp (F := Ideal) .f32 ((IntOp.cmpi .eq a b).setWidth 32) : EReal) = if a = b then 1 else 0 := by
  unfold IntOp.cmpi
  by_cases h : a = b
  · rw [if_pos h, show (a == b) = true from beq_iff_eq.mpr h]
    show ((((BitVec.ofBool true).setWidth 32).toInt : ℝ) : EReal) = 1
    rw [show ((BitVec.ofBool true).setWidth 32).toInt = 1 by decide]
    simp
  · rw [if_neg h, show (a == b) = false from beq_eq_false_iff_ne.mpr h]
    show ((((BitVec.ofBool false).setWidth 32).toInt : ℝ) : EReal) = 0
    rw [show ((BitVec.ofBool false).setWidth 32).toInt = 0 by decide]
    simp

/-- The 32-bit word of a natural number below `2³¹` reads, signed, as that number. -/
theorem toInt_ofNat_lt (g : ℕ) (hg : g < 2147483648) : (BitVec.ofNat 32 g).toInt = (g : ℤ) := by
  have h1 : (BitVec.ofNat 32 g).toNat = g := by
    rw [BitVec.toNat_ofNat]
    exact Nat.mod_eq_of_lt (by omega)
  rw [BitVec.toInt_eq_toNat_cond, h1]
  rw [if_pos (by omega)]

/-- A 32-bit word is the word of a natural `g < 2³¹` exactly when its signed value is `g`. -/
theorem eq_ofNat_iff (w : BitVec 32) (g : ℕ) (hg : g < 2147483648) : w = BitVec.ofNat 32 g ↔ w.toInt = (g : ℤ) := by
  constructor
  · intro h
    rw [h]
    exact toInt_ofNat_lt g hg
  · intro h
    exact BitVec.eq_of_toInt_eq (h.trans (toInt_ofNat_lt g hg).symm)

/-- A CONTRACTION AGAINST A ONE-HOT MATRIX IS A SELECTED SUM: the sum over all rows `n` of `[label n = word of g] · H n`
    is the sum of `H n` over the rows whose label, read signed, is `g`. -/
theorem onehot_sum {ι : Type} [Fintype ι] (label : ι → BitVec 32) (g : ℕ) (hg : g < 2147483648) (H : ι → EReal) :
    ∑ n, (if label n = BitVec.ofNat 32 g then (1 : EReal) else 0) * H n
      = ∑ n ∈ Finset.univ.filter (fun n => (label n).toInt = (g : ℤ)), H n := by
  rw [sum_indicator_mul]
  refine Finset.sum_congr (Finset.filter_congr fun n _ => eq_ofNat_iff (label n) g hg) fun _ _ => rfl

end Cert.OneHot

end
-- ==== Proof.Spec.lean ====
/-
  The stages of the graph network, as functions on arrays of extended reals, index by index. Every array here is a
  function from a rank-2 index `(row, column)`; sums run over a whole axis and are finite sums in the extended reals,
  where addition is commutative and associative, so no order of summation is part of a stage's meaning.

  * `mm A B`           — the matrix product: entry `(n, j)` is `∑ k, A[n,k] · B[k,j]`.
  * `selfLoop a h d`   — the aggregated messages plus the node's own, weighted, features: `a[n,j] + d[n,0] · h[n,j]`.
  * `addRow X b`       — a bias row added to every row: `X[n,j] + b[0,j]`.
  * `relu X`           — the larger of `X[n,j]` and the number the zero pattern denotes.
  * `segSum ids H`     — the sum, for each segment `g`, of the rows `e` of `H` whose segment number `ids[e,0]`, read as a
                         signed integer, is `g`; a row whose number names no segment is in no sum.
-/
import Idealize.ShloMosaic.Lib.ValueIdx
import Idealize.ShloMosaic.PureOps.Ideal
import proofs.«171345_j52037823758431_1_alg».proof.Proof.LibOneHot

noncomputable section

namespace Cert.Gcn

open Idealize.ShloMosaic Idealize.ShloMosaic.ValueIdx

variable {N K C G : Nat}

/-- The number the all-zero 32-bit pattern denotes (it is `0`; nothing below needs to know that except where a sum is
    started from it). -/
abbrev z : EReal := Ideal.ofBits .f32 0x00000000#32

/-- The matrix product. -/
def mm (A : (⟨2, ![N, K]⟩ : Shape).Idx → EReal) (B : (⟨2, ![K, C]⟩ : Shape).Idx → EReal) : (⟨2, ![N, C]⟩ : Shape).Idx → EReal :=
  fun i => ∑ k : Fin K, A (ix2 (⟨(i 0).val, idx2_lt0 i⟩ : Fin N) k) * B (ix2 k (⟨(i 1).val, idx2_lt1 i⟩ : Fin C))
theorem mm_apply (A : (⟨2, ![N, K]⟩ : Shape).Idx → EReal) (B : (⟨2, ![K, C]⟩ : Shape).Idx → EReal) (n : Fin N) (j : Fin C) :
    mm A B (ix2 n j) = ∑ k : Fin K, A (ix2 n k) * B (ix2 k j) := rfl

/-- The aggregated messages plus the node's own features weighted by its column entry. -/
def selfLoop (a h : (⟨2, ![N, C]⟩ : Shape).Idx → EReal) (d : (⟨2, ![N, 1]⟩ : Shape).Idx → EReal) : (⟨2, ![N, C]⟩ : Shape).Idx → EReal :=
  fun i => a i + d (ix2 (⟨(i 0).val, idx2_lt0 i⟩ : Fin N) (0 : Fin 1)) * h i
theorem selfLoop_apply (a h : (⟨2, ![N, C]⟩ : Shape).Idx → EReal) (d : (⟨2, ![N, 1]⟩ : Shape).Idx → EReal) (n : Fin N) (j : Fin C) :
    selfLoop a h d (ix2 n j) = a (ix2 n j) + d (ix2 n (0 : Fin 1)) * h (ix2 n j) := rfl

/-- A bias row added to every row. -/
def addRow (X : (⟨2, ![N, C]⟩ : Shape).Idx → EReal) (b : (⟨2, ![1, C]⟩ : Shape).Idx → EReal) : (⟨2, ![N, C]⟩ : Shape).Idx → EReal :=
  fun i => X i + b (ix2 (0 : Fin 1) (⟨(i 1).val, idx2_lt1 i⟩ : Fin C))
theorem addRow_apply (X : (⟨2, ![N, C]⟩ : Shape).Idx → EReal) (b : (⟨2, ![1, C]⟩ : Shape).Idx → EReal) (n : Fin N) (j : Fin C) :
    addRow X b (ix2 n j) = X (ix2 n j) + b (ix2 (0 : Fin 1) j) := rfl

/-- The positive part, against the number the zero pattern denotes. -/
def relu (X : (⟨2, ![N, C]⟩ : Shape).Idx → EReal) : (⟨2, ![N, C]⟩ : Shape).Idx → EReal := fun i => max (X i) z
theorem relu_apply (X : (⟨2, ![N, C]⟩ : Shape).Idx → EReal) (i : (⟨2, ![N, C]⟩ : Shape).Idx) : relu X i = max (X i) z := rfl

/-- The segment sums: row `e` of `H` is added into the segment its number names. -/
def segSum (ids : (⟨2, ![N, 1]⟩ : Shape).Idx → BitVec 32) (H : (⟨2, ![N, C]⟩ : Shape).Idx → EReal) : (⟨2, ![G, C]⟩ : Shape).Idx → EReal :=
  fun i => z + ∑ e ∈ Finset.univ.filter (fun e : Fin N => (ids (ix2 e (0 : Fin 1))).toInt = ((i 0).val : ℤ)),
    H (ix2 e (⟨(i 1).val, idx2_lt1 i⟩ : Fin C))
theorem segSum_apply (ids : (⟨2, ![N, 1]⟩ : Shape).Idx → BitVec 32) (H : (⟨2, ![N, C]⟩ : Shape).Idx → EReal) (g : Fin G) (f : Fin C) :
    segSum (G := G) ids H (ix2 g f) = z + ∑ e ∈ Finset.univ.filter (fun e : Fin N => (ids (ix2 e (0 : Fin 1))).toInt = (g.val : ℤ)), H (ix2 e f) := rfl

/-- A product with a factor that is one where a condition holds and zero elsewhere keeps the terms where it holds: in
    the extended reals `0 · x = 0` and `1 · x = x` for every `x`, infinite ones included. -/
theorem sum_indicator_mul {ι : Type} [Fintype ι] (p : ι → Prop) [DecidablePred p] (h : ι → EReal) :
    ∑ n, (if p n then (1 : EReal) else 0) * h n = ∑ n ∈ Finset.univ.filter p, h n :=
  Cert.OneHot.sum_indicator_mul p h

end Cert.Gcn

end
-- ==== Proof.LibDot.lean ====
/-
  A plain matrix product `[M, K] × [K, N]` on the host, read at an index over the extended reals: entry `(n, j)` is
  `∑ k, H[n,k] · W[k,j]` — no rounding and no order of summation left in it.
-/
import Idealize.ShloMosaic.Lib.ValueIdx
import Idealize.ShloMosaic.PureOps.Ideal.Laws

noncomputable section

namespace Cert.Dot

open Idealize.ShloMosaic Idealize.ShloMosaic.ValueIdx

variable {M K N : Nat}

theorem lhs0 (i : (⟨2, ![M, N]⟩ : Shape).Idx) (q : (DotDims.plain M K N).contr.Idx) : ((DotDims.plain M K N).lhsIdx i q 0).val = (i 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl
theorem lhs1 (i : (⟨2, ![M, N]⟩ : Shape).Idx) (q : (DotDims.plain M K N).contr.Idx) : ((DotDims.plain M K N).lhsIdx i q 1).val = (q ⟨0, Nat.one_pos⟩).val :=
  (DotDims.plain M K N).lhsIdx_val_of_single rfl i q
theorem rhs0 (i : (⟨2, ![M, N]⟩ : Shape).Idx) (q : (DotDims.plain M K N).contr.Idx) : ((DotDims.plain M K N).rhsIdx i q 0).val = (q ⟨0, Nat.one_pos⟩).val :=
  (DotDims.plain M K N).rhsIdx_val_of_single rfl i q
theorem rhs1 (i : (⟨2, ![M, N]⟩ : Shape).Idx) (q : (DotDims.plain M K N).contr.Idx) : ((DotDims.plain M K N).rhsIdx i q 1).val = (i 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

/-- THE PRODUCT AT `(n, j)`: row `n` of the left operand against column `j` of the right one. -/
theorem plainDot_apply {φ₁ φ₂ : FTy} (H : FVec Ideal ⟨2, ![M, K]⟩ φ₁) (W : FVec Ideal ⟨2, ![K, N]⟩ φ₂) (n : Fin M) (j : Fin N) :
    Host.dotGeneral (F := Ideal) (DotDims.plain M K N) none H W (ix2 n j) = ∑ k : Fin K, H (ix2 n k) * W (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 n j) ((contrEquiv1 (DotDims.plain M K N) K rfl rfl).symm k) = ix2 n k := funext fun a => Fin.ext (by
    match a with
    | ⟨0, _⟩ => exact lhs0 _ _
    | ⟨1, _⟩ => exact (lhs1 _ _).trans hk)
  have er : (DotDims.plain M K N).rhsIdx (ix2 n j) ((contrEquiv1 (DotDims.plain M K N) K rfl rfl).symm k) = ix2 k j := funext fun a => Fin.ext (by
    match a with
    | ⟨0, _⟩ => exact (rhs0 _ _).trans hk
    | ⟨1, _⟩ => exact rhs1 _ _)
  rw [el, er]

end Cert.Dot

end
-- ==== Proof.LibMxuDot.lean ====
/-
  A matrix-unit product into the zero accumulator, read at an index over the extended reals. Two arrangements: the
  plain one, `[M, K] × [K, N]`, whose entry `(n, j)` is `∑ k, A[n,k] · B[k,j]`; and the one that contracts the ROW axis
  of both operands, `[K, M] × [K, N]`, whose entry `(e, f)` is `∑ o, A[o,e] · B[o,f]`.
-/
import Idealize.ShloMosaic.Lib.ValueIdx
import Idealize.ShloMosaic.PureOps.Ideal.Laws
import proofs.«171345_j52037823758431_1_alg».proof.Proof.LibDot

noncomputable section

namespace Cert.KBodyDot

open Idealize.ShloMosaic Idealize.ShloMosaic.ValueIdx

variable {M K N : Nat}

/-- THE PLAIN PRODUCT AT `(n, j)`, for any record of dimension numbers that is the plain one. -/
theorem plainMatmul_apply {φ₁ φ₂ : FTy} (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂) (n : Fin M) (j : Fin N) :
    matmul D prec A B (constant (F := Ideal) ⟨2, ![M, N]⟩ .f32 0x00000000#32) (ix2 n j) = ∑ k : Fin K, A (ix2 n k) * B (ix2 k j) := by
  subst hD
  refine (Ideal.matmul_constant_zero_apply (DotDims.plain M K N) prec A B (ix2 n j)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 n j) ((contrEquiv1 (DotDims.plain M K N) K rfl rfl).symm k) = ix2 n k := funext fun a => Fin.ext (by
    match a with
    | ⟨0, _⟩ => exact Cert.Dot.lhs0 _ _
    | ⟨1, _⟩ => exact (Cert.Dot.lhs1 _ _).trans hk)
  have er : (DotDims.plain M K N).rhsIdx (ix2 n j) ((contrEquiv1 (DotDims.plain M K N) K rfl rfl).symm k) = ix2 k j := funext fun a => Fin.ext (by
    match a with
    | ⟨0, _⟩ => exact (Cert.Dot.rhs0 _ _).trans hk
    | ⟨1, _⟩ => exact Cert.Dot.rhs1 _ _)
  rw [el, er]

/-- The dimension numbers that contract axis 0 of both operands: `[K, M]` by `[K, N]` gives `[M, N]`. -/
def rowsDot (M K N : Nat) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section
variable (wf : DotDims.WF ⟨2, ![K, M]⟩ ⟨2, ![K, N]⟩ ⟨2, ![M, N]⟩ [0] [0] [1] [1] [] [])

theorem rlhs0 (i : (⟨2, ![M, N]⟩ : Shape).Idx) (q : (rowsDot M K N wf).contr.Idx) : ((rowsDot M K N wf).lhsIdx i q 0).val = (q ⟨0, Nat.one_pos⟩).val :=
  (rowsDot M K N wf).lhsIdx_val_of_single rfl i q
theorem rlhs1 (i : (⟨2, ![M, N]⟩ : Shape).Idx) (q : (rowsDot M K N wf).contr.Idx) : ((rowsDot M K N wf).lhsIdx i q 1).val = (i 0).val := by
  unfold DotDims.lhsIdx
  rw [dif_neg (show ¬(1 : Fin 2) ∈ (rowsDot M K N wf).lhsBatch from List.not_mem_nil), dif_pos (show (1 : Fin 2) ∈ (rowsDot M K N wf).lhsNonContracting from List.mem_singleton.mpr rfl)]
  rfl
theorem rrhs0 (i : (⟨2, ![M, N]⟩ : Shape).Idx) (q : (rowsDot M K N wf).contr.Idx) : ((rowsDot M K N wf).rhsIdx i q 0).val = (q ⟨0, Nat.one_pos⟩).val :=
  (rowsDot M K N wf).rhsIdx_val_of_single rfl i q
theorem rrhs1 (i : (⟨2, ![M, N]⟩ : Shape).Idx) (q : (rowsDot M K N wf).contr.Idx) : ((rowsDot M K N wf).rhsIdx i q 1).val = (i 1).val := by
  unfold DotDims.rhsIdx
  rw [dif_neg (show ¬(1 : Fin 2) ∈ (rowsDot M K N wf).rhsBatch from List.not_mem_nil), dif_pos (show (1 : Fin 2) ∈ (rowsDot M K N wf).rhsNonContracting from List.mem_singleton.mpr rfl)]
  rfl

/-- THE ROW-CONTRACTED PRODUCT AT `(e, f)`: column `e` of the left operand against column `f` of the right one. -/
theorem rowsMatmul_apply {φ₁ φ₂ : FTy} (D : DotDims ⟨2, ![K, M]⟩ ⟨2, ![K, N]⟩ ⟨2, ![M, N]⟩) (hD : D = rowsDot M K N wf)
    (prec : Option ContractPrecision) (A : FVec Ideal ⟨2, ![K, M]⟩ φ₁) (B : FVec Ideal ⟨2, ![K, N]⟩ φ₂) (e : Fin M) (f : Fin N) :
    matmul D prec A B (constant (F := Ideal) ⟨2, ![M, N]⟩ .f32 0x00000000#32) (ix2 e f) = ∑ o : Fin K, A (ix2 o e) * B (ix2 o f) := by
  subst hD
  refine (Ideal.matmul_constant_zero_apply (rowsDot M K N wf) prec A B (ix2 e f)).trans ?_
  rw [← Equiv.sum_comp (contrEquiv1 (rowsDot M K N wf) K rfl rfl).symm]
  refine Finset.sum_congr rfl fun k _ => ?_
  have hk := contrEquiv1_symm_val (rowsDot M K N wf) K rfl rfl k
  have el : (rowsDot M K N wf).lhsIdx (ix2 e f) ((contrEquiv1 (rowsDot M K N wf) K rfl rfl).symm k) = ix2 k e := funext fun a => Fin.ext (by
    match a with
    | ⟨0, _⟩ => exact (rlhs0 wf _ _).trans hk
    | ⟨1, _⟩ => exact rlhs1 wf _ _)
  have er : (rowsDot M K N wf).rhsIdx (ix2 e f) ((contrEquiv1 (rowsDot M K N wf) K rfl rfl).symm k) = ix2 k f := funext fun a => Fin.ext (by
    match a with
    | ⟨0, _⟩ => exact (rrhs0 wf _ _).trans hk
    | ⟨1, _⟩ => exact rrhs1 wf _ _)
  rw [el, er]

end

end Cert.KBodyDot

end
-- ==== Proof.LibKernelLayout.lean ====
/-
  Layout operations and reductions read at an index, in the forms the two bodies use: a vector made a column, a column
  spread over lanes, a bias row spread over rows, a sum or a maximum along one axis of a matrix, and the
  "not equal to zero" mask as a number.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KBodyLayout

open Idealize.ShloMosaic Idealize.ShloMosaic.ValueIdx

variable {α : Type}

/-- A vector of length `a` cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `b` made a `[1, b]` row and spread over `a` rows reads, at `(p, c)`, the vector at `c`. -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The index over `(j)` with row `o` inserted on axis 0 is `(o, j)`. -/
theorem lift0_eq {a b : ℕ} (h : (⟨2, ![a, b]⟩ : Shape).Reduces [0] ⟨1, ![b]⟩) (j : Fin b) (o : Fin a) :
    h.lift (ix1 j) o = ix2 o j :=
  funext fun ax => Fin.ext (by
    match ax with
    | ⟨0, _⟩ => rfl
    | ⟨1, _⟩ => rfl)

/-- The index over `(o)` with column `f` inserted on axis 1 is `(o, f)`. -/
theorem lift1_eq {a b : ℕ} (h : (⟨2, ![a, b]⟩ : Shape).Reduces [1] ⟨1, ![a]⟩) (o : Fin a) (f : Fin b) :
    h.lift (ix1 o) f = ix2 o f :=
  funext fun ax => Fin.ext (by
    match ax with
    | ⟨0, _⟩ => rfl
    | ⟨1, _⟩ => rfl)

/-- A sum down the rows of an `[a, b]` matrix reads, at column `j`, the sum over the rows of that column. -/
theorem sumRows_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ o : Fin a, src (ix2 o j) :=
  (Ideal.multiReduction_add_single src _ h hφ hacc (ix1 j)).trans
    (Finset.sum_congr rfl fun o _ => congrArg src (lift0_eq h j o))

/-- A maximum down the rows of an `[a, b]` matrix reads, at column `j`, the largest entry of that column, starting
    from the value the accumulator's word denotes. -/
theorem maxRows_apply {a b : ℕ} (src : FVec Ideal ⟨2, ![a, b]⟩ .f32) (h : (⟨2, ![a, b]⟩ : Shape).Reduces [0] ⟨1, ![b]⟩)
    (hφ : FKind.Formats .f32) (hacc : (0xFF800000#32 : BitVec 32) = FKind.maximumf.neutral .f32 hφ) (j : Fin b) :
    multiReduction .maximumf [0] ⟨1, ![b]⟩ src 0xFF800000#32 h hφ hacc (ix1 j)
      = (Finset.univ : Finset (Fin a)).fold max (Ideal.ofBits .f32 0xFF800000#32) (fun o => src (ix2 o j)) :=
  (Ideal.multiReduction_maximumf_single src _ h hφ hacc (ix1 j)).trans
    (congrArg (Finset.fold max (Ideal.ofBits .f32 0xFF800000#32) · Finset.univ) (funext fun o => congrArg src (lift0_eq h j o)))

/-- A maximum along the lanes of an `[a, b]` matrix reads, at row `o`, the largest entry of that row, starting from
    the value the accumulator's word denotes. -/
theorem maxLanes_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (o : Fin a) :
    multiReduction .maximumf [1] ⟨1, ![a]⟩ src 0xFF800000#32 h hφ hacc (ix1 o)
      = (Finset.univ : Finset (Fin b)).fold max (Ideal.ofBits .f32 0xFF800000#32) (fun f => src (ix2 o f)) :=
  (Ideal.multiReduction_maximumf_single src _ h hφ hacc (ix1 o)).trans
    (congrArg (Finset.fold max (Ideal.ofBits .f32 0xFF800000#32) · Finset.univ) (funext fun f => congrArg src (lift1_eq h o f)))

/-- The comparison "is not equal to zero", widened to a 32-bit integer and converted to a number, is one when the
    value is not zero and zero when it is. -/
theorem ne_zero_mask (x : EReal) :
    (FloatOps.sitofp (F := Ideal) .f32 ((FloatOps.cmpf (F := Ideal) (φ := .f32) .one x (Ideal.ofBits .f32 0x00000000#32)).setWidth 32) : EReal)
      = if x ≠ 0 then 1 else 0 := by
  rw [Ideal.cmpf_def, Ideal.ofBits_zero_f32]
  unfold Ideal.cmp
  by_cases hx : x = 0
  · subst hx
    simp
    show (((0#32 : BitVec 32).toInt : ℝ) : EReal) = 0
    simp
  · simp [hx]
    show (((1#32 : BitVec 32).toInt : ℝ) : EReal) = 1
    simp

end Cert.KBodyLayout

end
-- ==== Proof.PoolTile.lean ====
/-
  What the pooling body adds at one tile. For each of the 5000 nodes of the tile and each of the 256 graphs it forms a
  factor that is one when the node's graph number equals the graph's number and zero otherwise, and it multiplies the
  tile's features by these factors, contracting over the nodes: entry `(g, f)` of the product is the sum over the
  tile's nodes `o` of `[id o = g] · h[o, f]`. The body adds that product to the accumulator.
-/
import proofs.«171345_j52037823758431_1_alg».proof.Proof.Gen.KernelIdeal.Skeleton
import proofs.«171345_j52037823758431_1_alg».proof.Proof.Spec
import proofs.«171345_j52037823758431_1_alg».proof.Proof.LibMxuDot
import proofs.«171345_j52037823758431_1_alg».proof.Proof.LibKernelLayout
import Idealize.ShloMosaic.Lib.ValueLayout
import Idealize.ShloMosaic.Lib.Pipeline.Value

noncomputable section

namespace Cert.KernelIdeal.Tile

open Cert.KernelIdeal Cert.KernelIdeal.Gen Cert.Gcn Idealize.ShloMosaic Idealize.ShloMosaic.ValueIdx

/-- The comparison "equal", widened to 32 bits and converted to a number, is one when the two words are equal and
    zero when they are not. -/
theorem eq_mask (a b : BitVec 32) :
    (FloatOps.sitofp (F := Ideal) .f32 ((IntOp.cmpi .eq a b).setWidth 32) : EReal) = if a = b then 1 else 0 :=
  Cert.OneHot.eq_mask a b

/-- The pooling body's new accumulator at `(g, f)`: the old one plus the tile's nodes of graph `g`. -/
theorem pool (ids : Vec Ideal S5000x1 .i32) (gid : Vec Ideal S1x256 .i32) (h : Vec Ideal S5000x128 .f32)
    (acc : Vec Ideal S256x128 .f32) (g : Fin 256) (f : Fin 128) :
    k4_pay2 (F := Ideal) ids gid h acc (ix2 g f)
      = acc (ix2 g f) + ∑ o : Fin 5000,
          (if ids (ix2 o (0 : Fin 1)) = gid (ix2 (0 : Fin 1) g) then (1 : EReal) else 0) * h (ix2 o f) := by
  unfold k4_pay2
  simp only [shapeCast_self]
  show acc (ix2 g f) + matmul dot_S5000x256_S5000x128_S256x128_0_0_1_1_n_n none _ _
    (constant (F := Ideal) S256x128 .f32 0x00000000#32) (ix2 g f) = _
  refine congrArg (acc (ix2 g f) + ·) ?_
  refine (Cert.KBodyDot.rowsMatmul_apply dot_S5000x256_S5000x128_S256x128_0_0_1_1_n_n.wf
    dot_S5000x256_S5000x128_S256x128_0_0_1_1_n_n rfl none _ _ g f).trans ?_
  refine Finset.sum_congr rfl fun o _ => congrArg (· * h (ix2 o f)) ?_
  show FloatOps.sitofp (F := Ideal) .f32 ((IntOp.cmpi .eq (broadcastTo S5000x256 ids broadcasts_S5000x1_S5000x256 (ix2 o g))
    (broadcastTo S5000x256 gid broadcasts_S1x256_S5000x256 (ix2 o g))).setWidth 32) = _
  rw [Cert.KBodyLayout.broadcastTo_a1_ab_apply, broadcastTo_1b_ab_apply]
  exact eq_mask _ _

/-- The accumulator the first point starts from is the number the zero pattern denotes, everywhere. -/
theorem pool_init (i : S256x128.Idx) : k4_pay1 (F := Ideal) i = z := rfl

end Cert.KernelIdeal.Tile

end
-- ==== Proof.LibRegroup.lean ====
/-
  A sum over `m · n` consecutive indices, grouped into `m` blocks of `n`: the sum over the blocks of the sums inside
  each block, in any commutative additive monoid.
-/
import Mathlib.Algebra.BigOperators.Fin
import Mathlib.Logic.Equiv.Fin.Basic
import Mathlib.Tactic.Ring

namespace Cert.Regroup

variable {M : Type*} [AddCommMonoid M]

/-- The sum over `Fin (m * n)` is the sum over blocks `q` and offsets `r` of the term at `n · q + r`. -/
theorem sum_blocks (m n : ℕ) (f : Fin (m * n) → M) :
    (∑ q : Fin m, ∑ r : Fin n, f ⟨n * q.val + r.val, by
        have hq := q.isLt; have hr := r.isLt
        calc n * q.val + r.val < n * q.val + n := by omega
          _ = n * (q.val + 1) := by ring
          _ ≤ n * m := Nat.mul_le_mul_left _ hq
          _ = m * n := Nat.mul_comm _ _⟩) = ∑ i : Fin (m * n), f i := by
  rw [← Equiv.sum_comp finProdFinEquiv f, Fintype.sum_prod_type]
  refine Finset.sum_congr rfl fun q _ => Finset.sum_congr rfl fun r _ => congrArg f (Fin.ext ?_)
  show n * q.val + r.val = (finProdFinEquiv (q, r)).val
  simp [finProdFinEquiv]
  ring

end Cert.Regroup
-- ==== Proof.Region4.lean ====
/-
  The pooling launch, from its tiles to the whole array.

  The launch visits the 100000 nodes in 20 tiles of 5000. It carries a `[256, 128]` accumulator from tile to tile:
  the first tile starts it from zero, every tile adds, at `(g, f)`, the sum over its nodes `o` of
  `[id o = number g] · h[o, f]`, and only the last tile's accumulator is written back. So after tile `n` the
  accumulator holds zero plus the contributions of tiles `0 … n`, and the array the launch leaves is zero plus the
  contributions of all twenty tiles.

  That is the segment sum. The factor `[id o = number g]` is one or zero, and in the extended reals `1 · x = x` and
  `0 · x = 0` for every `x`, infinite ones included, so a tile's contribution is the sum of `h[o, f]` over its nodes of
  graph `g`. Addition of extended reals is commutative and associative, so the twenty sums over 5000 nodes regroup
  into one sum over the 100000 nodes `e = 5000 t + o`. The numbers row holds `g` at position `g`, and a 32-bit word
  equals the word of a natural `g < 256` exactly when its signed value is `g`.
-/
import proofs.«171345_j52037823758431_1_alg».proof.Proof.Gen.KernelIdeal.Frame
import proofs.«171345_j52037823758431_1_alg».proof.Proof.Spec
import proofs.«171345_j52037823758431_1_alg».proof.Proof.PoolTile
import proofs.«171345_j52037823758431_1_alg».proof.Proof.LibRegroup
import Idealize.ShloMosaic.Lib.Pipeline.Value

set_option maxRecDepth 16384

noncomputable section

open scoped BigOperators

namespace Cert.KernelIdeal.Reg4

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)
open Idealize.ShloMosaic.Tactic

/-! ## Finite sums over an initial segment of the points -/

section Sums
variable {M : Type*} [AddCommMonoid M]

/-- The points up to the first one are the first one. -/
theorem sum_le_zero {N : ℕ} (F : Fin N → M) (h0 : 0 < N) :
    ∑ t ∈ Finset.univ.filter (fun t : Fin N => t.val ≤ 0), F t = F ⟨0, h0⟩ := by
  have hs : Finset.univ.filter (fun t : Fin N => t.val ≤ 0) = {⟨0, h0⟩} := by
    ext t
    rw [Finset.mem_filter, Finset.mem_singleton, Fin.ext_iff]
    exact ⟨fun h => Nat.le_zero.mp h.2, fun h => ⟨Finset.mem_univ _, Nat.le_of_eq h⟩⟩
  rw [hs, Finset.sum_singleton]

/-- The points up to `n + 1` are the points up to `n` and the point `n + 1`. -/
theorem sum_le_succ {N : ℕ} (F : Fin N → M) (n : ℕ) (hn : n + 1 < N) :
    ∑ t ∈ Finset.univ.filter (fun t : Fin N => t.val ≤ n + 1), F t
      = (∑ t ∈ Finset.univ.filter (fun t : Fin N => t.val ≤ n), F t) + F ⟨n + 1, hn⟩ := by
  have hs : Finset.univ.filter (fun t : Fin N => t.val ≤ n + 1)
      = insert (⟨n + 1, hn⟩ : Fin N) (Finset.univ.filter (fun t : Fin N => t.val ≤ n)) := by
    ext t
    rw [Finset.mem_insert, Finset.mem_filter, Finset.mem_filter, Fin.ext_iff]
    constructor
    · intro h
      rcases Nat.lt_or_ge t.val (n + 1) with h1 | h1
      · exact Or.inr ⟨Finset.mem_univ _, Nat.lt_succ_iff.mp h1⟩
      · exact Or.inl (Nat.le_antisymm h.2 h1)
    · rintro (h | h)
      · exact ⟨Finset.mem_univ _, Nat.le_of_eq h⟩
      · exact ⟨Finset.mem_univ _, Nat.le_succ_of_le h.2⟩
  have hnot : (⟨n + 1, hn⟩ : Fin N) ∉ Finset.univ.filter (fun t : Fin N => t.val ≤ n) := by
    rw [Finset.mem_filter]
    exact fun h => Nat.not_succ_le_self n h.2
  rw [hs, Finset.sum_insert hnot, add_comm]

/-- Past the last point, the points up to `n` are all the points. -/
theorem sum_le_all {N : ℕ} (F : Fin N → M) (n : ℕ) (hn : N ≤ n + 1) :
    ∑ t ∈ Finset.univ.filter (fun t : Fin N => t.val ≤ n), F t = ∑ t, F t := by
  refine Finset.sum_congr (Finset.filter_true_of_mem fun t _ => ?_) fun _ _ => rfl
  exact Nat.lt_succ_iff.mp (Nat.lt_of_lt_of_le t.isLt hn)

/-- A sum over `Fin N` is the sum over `Fin N'` when `N = N'`. -/
theorem sum_fin_cast {N N' : ℕ} (h : N' = N) (F : Fin N → M) : ∑ t, F t = ∑ q : Fin N', F (Fin.cast h q) := by
  subst h
  rfl

end Sums

/-- The 32-bit word of a natural below 256 has that natural as its signed value. -/
theorem toInt_ofNat_lt (g : ℕ) (hg : g < 256) : (BitVec.ofNat 32 g).toInt = (g : ℤ) :=
  Cert.OneHot.toInt_ofNat_lt g (by omega)

/-- A 32-bit word is the word of a natural `g < 256` exactly when its signed value is `g`. -/
theorem eq_ofNat_iff (w : BitVec 32) (g : ℕ) (hg : g < 256) : w = BitVec.ofNat 32 g ↔ w.toInt = (g : ℤ) :=
  Cert.OneHot.eq_ofNat_iff w g (by omega)

/-! ## What the body leaves, as the tile's formula -/

section Pieces
variable {F : FTy → Type} [FloatOps F]

theorem hz : (![0, 0] : Fin 2 → Nat) = fun _ => 0 := funext fun a => by fin_cases a <;> rfl

/-- At the first point the body leaves the tile's sums added to the zero accumulator. -/
theorem pieceA (c : Dev nD) (i : grid4.Coords) (arg1 : Memref sig .tc .vmem S5000x128 .f32) (harg1 : arg1.IsWhole) (arg2 : Memref sig .tc .vmem S5000x1 .i32) (harg2 : arg2.IsWhole) (arg3 : Memref sig .tc .vmem S1x256 .i32) (harg3 : arg3.IsWhole) (arg4 : Memref sig .tc .vmem S256x128 .f32) (harg4 : arg4.IsWhole) (hc0 : cond4_0 i)
    (x0 : Vec F S5000x128 .f32) (x1 : Vec F S5000x1 .i32) (x2 : Vec F S1x256 .i32) :
    out4_A_3 c i arg1 harg1 arg2 harg2 arg3 harg3 arg4 harg4 hc0 x0 x1 x2 = k4_pay2 x1 x2 x0 (k4_pay1 (F := F)) := by
  unfold out4_A_3
  rw [View.read_writes_eq_canon _ _ _ (cover4_A_3 c i arg1 harg1 arg2 harg2 arg3 harg3 arg4 harg4 hc0 x0 x1 x2)]
  unfold kernelRun4_A
  dsimp only
  rw [View.canon_cons_unit_zero hz]
  simp only [View.readAt_eq_ld, harg1.read_unread, harg2.read_unread, harg3.read_unread,
    View.ld_unit_zero (S := S5000x128) hz, View.ld_unit_zero (S := S5000x1) hz, View.ld_unit_zero (S := S1x256) hz]
  sl_unfold_run_names
  rw [View.readCov_unit_zero _ hz]

/-- At every later point the body leaves the tile's sums added to the accumulator it found. -/
theorem pieceB (c : Dev nD) (i : grid4.Coords) (arg1 : Memref sig .tc .vmem S5000x128 .f32) (harg1 : arg1.IsWhole) (arg2 : Memref sig .tc .vmem S5000x1 .i32) (harg2 : arg2.IsWhole) (arg3 : Memref sig .tc .vmem S1x256 .i32) (harg3 : arg3.IsWhole) (arg4 : Memref sig .tc .vmem S256x128 .f32) (harg4 : arg4.IsWhole) (hc0 : ¬cond4_0 i)
    (x0 : Vec F S5000x128 .f32) (x1 : Vec F S5000x1 .i32) (x2 : Vec F S1x256 .i32) (xo3 : Vec F S256x128 .f32) :
    out4_B_3 c i arg1 harg1 arg2 harg2 arg3 harg3 arg4 harg4 hc0 x0 x1 x2 xo3 = k4_pay2 x1 x2 x0 xo3 := by
  unfold out4_B_3
  rw [View.read_writes_eq_canon _ _ _ (cover4_B_3 c i arg1 harg1 arg2 harg2 arg3 harg3 arg4 harg4 hc0 x0 x1 x2 xo3)]
  unfold kernelRun4_B
  dsimp only
  rw [View.canon_unit_zero hz]
  simp only [View.readAt_eq_ld, harg1.read_unread, harg2.read_unread, harg3.read_unread, harg4.read_unread,
    View.ld_unit_zero (S := S5000x128) hz, View.ld_unit_zero (S := S5000x1) hz, View.ld_unit_zero (S := S1x256) hz,
    View.ld_unit_zero (S := S256x128) hz]

end Pieces

variable (V : (c : Dev nD) → (b : Ref sig .tc) → Buf (Elt Ideal) ((c : Thread nD τ).loc b))

/-- The block index maps over the grid: the features and the graph numbers move down one tile per point, the
    numbers row and the accumulator stay. -/
theorem idx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0 :=
  (by decide +kernel : ∀ t : Fin grid4.N, _)

/-! ## The accumulator after `n` points -/

/-- Tile `t`'s contribution at `(g, f)`: the sum over the tile's nodes `o` of `[id o = number g] · h[o, f]`. -/
def part (c : Dev nD) (t : Fin cfg4.N) (g : Fin 256) (f : Fin 128) : EReal :=
  ∑ o : Fin 5000, (if (iblk4 V c 1 t : Vec Ideal S5000x1 .i32) (ix2 o (0 : Fin 1))
      = (iblk4 V c 2 t : Vec Ideal S1x256 .i32) (ix2 (0 : Fin 1) g) then (1 : EReal) else 0)
    * (iblk4 V c 0 t : Vec Ideal S5000x128 .f32) (ix2 o f)

/-- At the first point the accumulator is left at zero plus the tile's contribution. -/
theorem step_first (c : Dev nD) (t : Fin cfg4.N) (h0 : t.val % 20 = 0) (g : Fin 256) (f : Fin 128) :
    outsAt4 V c t.val t.isLt (ix2 g f) = z + part V c t g f := by
  refine (congrFun ((outsAt4_A V c t h0).trans
    (pieceA (F := Ideal) c (grid4.coords t) (ms4_0 t) (hs4_0 t) (ms4_1 t) (hs4_1 t) (ms4_2 t) (hs4_2 t) (ms4_3 t) (hs4_3 t) ((hcond4_0 t).mpr h0) (iblk4 V c 0 t) (iblk4 V c 1 t) (iblk4 V c 2 t))) (ix2 g f)).trans ?_
  exact Tile.pool (iblk4 V c 1 t) (iblk4 V c 2 t) (iblk4 V c 0 t) (k4_pay1 (F := Ideal)) g f

/-- At a later point the accumulator is left at what the point before left plus the tile's contribution. -/
theorem step_next (c : Dev nD) (t : Fin cfg4.N) (h0 : ¬t.val % 20 = 0) (g : Fin 256) (f : Fin 128) :
    outsAt4 V c t.val t.isLt (ix2 g f)
      = outsAt4 V c (t.val - 1) (Nat.lt_of_le_of_lt (Nat.sub_le _ _) t.isLt) (ix2 g f) + part V c t g f := by
  refine (congrFun ((outsAt4_B V c t h0).trans
    (pieceB (F := Ideal) c (grid4.coords t) (ms4_0 t) (hs4_0 t) (ms4_1 t) (hs4_1 t) (ms4_2 t) (hs4_2 t) (ms4_3 t) (hs4_3 t) (fun h => h0 ((hcond4_0 t).mp h)) (iblk4 V c 0 t) (iblk4 V c 1 t) (iblk4 V c 2 t)
      (outsAt4 V c (t.val - 1) (Nat.lt_of_le_of_lt (Nat.sub_le _ _) t.isLt)))) (ix2 g f)).trans ?_
  exact Tile.pool (iblk4 V c 1 t) (iblk4 V c 2 t) (iblk4 V c 0 t)
    (outsAt4 V c (t.val - 1) (Nat.lt_of_le_of_lt (Nat.sub_le _ _) t.isLt)) g f

/-- THE ACCUMULATOR after point `n` holds zero plus the contributions of the tiles `0 … n`. -/
theorem acc (c : Dev nD) : ∀ (n : ℕ) (hn : n < cfg4.N) (g : Fin 256) (f : Fin 128),
    outsAt4 V c n hn (ix2 g f)
      = z + ∑ t ∈ Finset.univ.filter (fun t : Fin cfg4.N => t.val ≤ n), part V c t g f
  | 0, hn, g, f => by
    rw [sum_le_zero (fun t : Fin cfg4.N => part V c t g f) hn]
    exact step_first V c ⟨0, hn⟩ (Nat.zero_mod _) g f
  | n + 1, hn, g, f => by
    have hN : n + 1 < 20 := lt_of_lt_of_eq hn (show cfg4.N = 20 from N_4)
    rw [sum_le_succ (fun t : Fin cfg4.N => part V c t g f) n hn, ← add_assoc,
      ← acc c n (Nat.lt_of_succ_lt hn) g f]
    exact step_next V c ⟨n + 1, hn⟩ (by show ¬(n + 1) % 20 = 0; omega) g f

/-! ## The blocks, read off the arrays the launch finds -/

/-- Node `o` of tile `t` is node `5000 t + o` of the 100000. -/
theorem row_lt (t : Fin cfg4.N) (o : Fin 5000) : 5000 * t.val + o.val < 100000 := by
  have ht : t.val < 20 := lt_of_lt_of_eq t.isLt (show cfg4.N = 20 from N_4)
  have ho := o.isLt
  omega

/-- The features' block at tile `t` is rows `5000 t …` of the features. -/
theorem blk0 (c : Dev nD) (t : Fin cfg4.N) (o : Fin 5000) (f : Fin 128) :
    (iblk4 V c 0 t : Vec Ideal S5000x128 .f32) (ix2 o f)
      = (V c main_v59 : S100000x128.Idx → EReal) (ix2 (⟨5000 * t.val + o.val, row_lt t o⟩ : Fin 100000) f) := by
  obtain ⟨e0, e1, e2, e3, e4, e5, e6, e7⟩ := idx t
  show V c main_v59 (((cfg4.win 0).blk t).view.emb (ix2 o f)) = _
  refine congrArg (V c main_v59) (funext fun a => Fin.ext ?_)
  match a with
  | ⟨0, _⟩ => show win4_0.index t (0 : Fin 2) * 5000 + 1 * o.val = 5000 * t.val + o.val; omega
  | ⟨1, _⟩ => show win4_0.index t (1 : Fin 2) * 128 + 1 * f.val = f.val; omega

/-- The graph numbers' block at tile `t` is rows `5000 t …` of the graph numbers. -/
theorem blk1 (c : Dev nD) (t : Fin cfg4.N) (o : Fin 5000) :
    (iblk4 V c 1 t : Vec Ideal S5000x1 .i32) (ix2 o (0 : Fin 1))
      = (V c main_v62 : S100000x1.Idx → BitVec 32) (ix2 (⟨5000 * t.val + o.val, row_lt t o⟩ : Fin 100000) (0 : Fin 1)) := by
  obtain ⟨e0, e1, e2, e3, e4, e5, e6, e7⟩ := idx t
  show V c main_v62 (((cfg4.win 1).blk t).view.emb (ix2 o (0 : Fin 1))) = _
  refine congrArg (V c main_v62) (funext fun a => Fin.ext ?_)
  match a with
  | ⟨0, _⟩ => show win4_1.index t (0 : Fin 2) * 5000 + 1 * o.val = 5000 * t.val + o.val; omega
  | ⟨1, _⟩ => show win4_1.index t (1 : Fin 2) * 1 + 1 * 0 = 0; omega

/-- The numbers row's block is the whole row at every point. -/
theorem blk2 (c : Dev nD) (t : Fin cfg4.N) (g : Fin 256) :
    (iblk4 V c 2 t : Vec Ideal S1x256 .i32) (ix2 (0 : Fin 1) g) = (V c main_v61 : S1x256.Idx → BitVec 32) (ix2 (0 : Fin 1) g) := by
  obtain ⟨e0, e1, e2, e3, e4, e5, e6, e7⟩ := idx t
  show V c main_v61 (((cfg4.win 2).blk t).view.emb (ix2 (0 : Fin 1) g)) = _
  refine congrArg (V c main_v61) (funext fun a => Fin.ext ?_)
  match a with
  | ⟨0, _⟩ => show win4_2.index t (0 : Fin 2) * 1 + 1 * 0 = 0; omega
  | ⟨1, _⟩ => show win4_2.index t (1 : Fin 2) * 256 + 1 * g.val = g.val; omega

/-- Tile `t`'s contribution at `(g, f)`, of the arrays: the sum over `o` of `[id (5000 t + o) = g] · h[5000 t + o, f]`,
    the numbers row holding `g` at position `g`. -/
theorem part_eq (c : Dev nD) (hgid : ∀ g : Fin 256, V c main_v61 (ix2 (0 : Fin 1) g) = BitVec.ofNat 32 g.val) (t : Fin cfg4.N) (g : Fin 256) (f : Fin 128) :
    part V c t g f = ∑ o : Fin 5000,
      (if (V c main_v62 : S100000x1.Idx → BitVec 32) (ix2 (⟨5000 * t.val + o.val, row_lt t o⟩ : Fin 100000) (0 : Fin 1))
          = BitVec.ofNat 32 g.val then (1 : EReal) else 0)
        * (V c main_v59 : S100000x128.Idx → EReal) (ix2 (⟨5000 * t.val + o.val, row_lt t o⟩ : Fin 100000) f) := by
  unfold part
  refine Finset.sum_congr rfl fun o _ => ?_
  rw [blk0 V c t o f, blk1 V c t o, blk2 V c t g, hgid g]

/-! ## The last point's accumulator is the segment sum -/

/-- After the last point the accumulator at `(g, f)` is the sum of the rows `e` of the features whose graph number,
    read signed, is `g`: the twenty tiles' sums regrouped into one sum over the nodes, the one-hot factor keeping
    exactly the nodes of graph `g`. -/
theorem total (c : Dev nD) (hgid : ∀ g : Fin 256, V c main_v61 (ix2 (0 : Fin 1) g) = BitVec.ofNat 32 g.val) (t : Fin cfg4.N) (ht : t.val % 20 = 19) (g : Fin 256) (f : Fin 128) :
    outsAt4 V c t.val t.isLt (ix2 g f) = segSum (G := 256) (N := 100000) (C := 128) (V c main_v62) (V c main_v59) (ix2 g f) := by
  have hN : cfg4.N = 20 := N_4
  have ht' : t.val < 20 := lt_of_lt_of_eq t.isLt hN
  rw [acc V c t.val t.isLt g f, segSum_apply,
    sum_le_all (fun t' : Fin cfg4.N => part V c t' g f) t.val (by omega),
    sum_fin_cast hN.symm (fun t' : Fin cfg4.N => part V c t' g f)]
  refine congrArg (z + ·) ?_
  refine Eq.trans ?_ (sum_indicator_mul
    (fun e : Fin 100000 => ((V c main_v62 : S100000x1.Idx → BitVec 32) (ix2 e (0 : Fin 1))).toInt = (g.val : ℤ))
    (fun e : Fin 100000 => (V c main_v59 : S100000x128.Idx → EReal) (ix2 e f)))
  refine Eq.trans ?_ (Cert.Regroup.sum_blocks 20 5000 (fun e : Fin (20 * 5000) =>
    (if ((V c main_v62 : S100000x1.Idx → BitVec 32) (ix2 e (0 : Fin 1))).toInt = (g.val : ℤ) then (1 : EReal) else 0)
      * (V c main_v59 : S100000x128.Idx → EReal) (ix2 e f)))
  refine Finset.sum_congr rfl fun q _ => ?_
  rw [part_eq V c hgid]
  refine Finset.sum_congr rfl fun o _ => ?_
  exact congrArg₂ (· * ·) (if_congr (eq_ofNat_iff _ g.val g.isLt) rfl rfl) rfl

/-- What the last point writes back is the segment sum of the two arrays. -/
theorem flushed (c : Dev nD) (hgid : ∀ g : Fin 256, V c main_v61 (ix2 (0 : Fin 1) g) = BitVec.ofNat 32 g.val) (t : Fin cfg4.N) (ht : t.val % 20 = 19) :
    (dat4 V c).flushed 3 t = ((cfg4.win 3).blk t).view.read (Elt Ideal) (segSum (G := 256) (N := 100000) (C := 128) (V c main_v62) (V c main_v59)) := by
  show (cfg4.win 3).cut (grid4.coords t) ((dat4 V c).after 3 t) = _
  rw [after4_3]
  obtain ⟨e0, e1, e2, e3, e4, e5, e6, e7⟩ := idx t
  funext j
  have hj : ((cfg4.win 3).blk t).view.emb j = j := funext fun a => Fin.ext (by
    match a with
    | ⟨0, _⟩ => show win4_3.index t (0 : Fin 2) * 256 + 1 * (j 0).val = (j 0).val; omega
    | ⟨1, _⟩ => show win4_3.index t (1 : Fin 2) * 128 + 1 * (j 1).val = (j 1).val; omega)
  show outsAt4 V c t.val t.isLt j = segSum (G := 256) (N := 100000) (C := 128) (V c main_v62) (V c main_v59) (((cfg4.win 3).blk t).view.emb j)
  rw [hj]
  obtain ⟨g, f, rfl⟩ : ∃ (g : Fin 256) (f : Fin 128), j = ix2 g f := ⟨j 0, j 1, eq_ix2 j⟩
  exact total V c hgid t ht g f

/-- Every index of the pooled array is in the last point's block, which is the whole array. -/
theorem cover (i : S256x128.Idx) : ∃ t : Fin cfg4.N, (cfg4.win 3).flush t = true ∧ i ∈ ((cfg4.win 3).blk t).view.set := by
  have hi0 : (i 0).val < 256 := (i 0).isLt
  have hi1 : (i 1).val < 128 := (i 1).isLt
  have h19 : 19 < cfg4.N := lt_of_lt_of_eq (by omega) (show cfg4.N = 20 from N_4).symm
  refine ⟨⟨19, h19⟩, (flush4_3 ⟨19, h19⟩).mpr rfl, ?_⟩
  show i ∈ ((View.whole main_v63).slice (win4_3.rect ⟨19, h19⟩)).set
  rw [View.set_slice_whole, Rect.mem_set_unit]
  obtain ⟨e0, e1, e2, e3, e4, e5, e6, e7⟩ := idx ⟨19, h19⟩
  intro a
  match a with
  | ⟨0, _⟩ => show win4_3.index ⟨19, h19⟩ (0 : Fin 2) * 256 ≤ (i 0).val ∧ (i 0).val < win4_3.index ⟨19, h19⟩ (0 : Fin 2) * 256 + 256; omega
  | ⟨1, _⟩ => show win4_3.index ⟨19, h19⟩ (1 : Fin 2) * 128 ≤ (i 1).val ∧ (i 1).val < win4_3.index ⟨19, h19⟩ (1 : Fin 2) * 128 + 128; omega

/-- THE POOLED ARRAY after the launch is the segment sum of the features by the graph numbers, when the numbers row
    holds `g` at position `g`. -/
theorem final (c : Dev nD) (hgid : ∀ g : Fin 256, V c main_v61 (ix2 (0 : Fin 1) g) = BitVec.ofNat 32 g.val) :
    (dat4 V c).arrAt 3 cfg4.N = segSum (G := 256) (N := 100000) (C := 128) (V c main_v62) (V c main_v59) :=
  (dat4 V c).arrAt_eq_of_cover 3 _ (fun t ht => flushed V c hgid t ((flush4_3 t).mp ht)) cover

end Cert.KernelIdeal.Reg4

end
-- ==== Proof.Tiles.lean ====
/-
  What each kernel body computes on its tile, as a function of the tiles it loads. At the extended reals a change of
  float format is the identity and a matrix-unit product into a zero accumulator is the plain sum of products, so:

  * the two feature transforms compute the product of a 5000-row tile with the 128 × 128 weights;
  * the two combine steps compute, entry by entry, the positive part of `agg + d · h + bias`, the column `d` spread
    over the lanes and the bias row over the rows;
  * the head computes `relu (g · W₁ + b₁) · W₂ + b₂` on all 256 graphs at once.
-/
import proofs.«171345_j52037823758431_1_alg».proof.Proof.Gen.KernelIdeal.Skeleton
import proofs.«171345_j52037823758431_1_alg».proof.Proof.Spec
import proofs.«171345_j52037823758431_1_alg».proof.Proof.LibMxuDot
import proofs.«171345_j52037823758431_1_alg».proof.Proof.LibKernelLayout
import Idealize.ShloMosaic.Lib.ValueLayout
import Idealize.ShloMosaic.Lib.Pipeline.Value

noncomputable section

namespace Cert.KernelIdeal.Tile

open Cert.KernelIdeal Cert.KernelIdeal.Gen Cert.Gcn Idealize.ShloMosaic Idealize.ShloMosaic.ValueIdx

/-- The first feature transform on a tile: rows of the tile against the weights. -/
theorem transform1 (x : Vec Ideal S5000x128 .f32) (w : Vec Ideal S128x128 .f32) :
    k0_pay1 (F := Ideal) x w = mm (N := 5000) (K := 128) (C := 128) x w := by
  funext i
  obtain ⟨r, j, rfl⟩ : ∃ (r : Fin 5000) (j : Fin 128), i = ix2 r j := ⟨i 0, i 1, eq_ix2 i⟩
  unfold k0_pay1
  exact Cert.KBodyDot.plainMatmul_apply dot_S5000x128_S128x128_S5000x128_1_0_0_1_n_n rfl none _ _ r j

/-- The second feature transform on a tile: the same product (the tile is first cast to its own shape). -/
theorem transform2 (x : Vec Ideal S5000x128 .f32) (w : Vec Ideal S128x128 .f32) :
    k2_pay1 (F := Ideal) x w = mm (N := 5000) (K := 128) (C := 128) x w := by
  funext i
  obtain ⟨r, j, rfl⟩ : ∃ (r : Fin 5000) (j : Fin 128), i = ix2 r j := ⟨i 0, i 1, eq_ix2 i⟩
  unfold k2_pay1
  simp only [shapeCast_self]
  exact Cert.KBodyDot.plainMatmul_apply dot_S5000x128_S128x128_S5000x128_1_0_0_1_n_n rfl none _ _ r j

/-- The first combine step on a tile: the positive part of `agg + d · h + bias`, entry by entry. -/
theorem combine1 (d : Vec Ideal S5000x1 .f32) (a h : Vec Ideal S5000x128 .f32) (b : Vec Ideal S1x128 .f32) :
    k1_pay1 (F := Ideal) d a h b = relu (addRow (selfLoop (N := 5000) (C := 128) a h d) b) := by
  funext i
  obtain ⟨r, j, rfl⟩ : ∃ (r : Fin 5000) (j : Fin 128), i = ix2 r j := ⟨i 0, i 1, eq_ix2 i⟩
  unfold k1_pay1
  simp only [shapeCast_self]
  show max ((a (ix2 r j) + broadcastTo S5000x128 d broadcasts_S5000x1_S5000x128 (ix2 r j) * h (ix2 r j))
    + broadcastTo S5000x128 b broadcasts_S1x128_S5000x128 (ix2 r j)) (Ideal.ofBits .f32 0x00000000#32) = _
  rw [Cert.KBodyLayout.broadcastTo_a1_ab_apply, broadcastTo_1b_ab_apply]
  rfl

/-- The second combine step on a tile: the positive part of `agg + d · h + bias`, entry by entry. -/
theorem combine3 (d : Vec Ideal S5000x1 .f32) (a h : Vec Ideal S5000x128 .f32) (b : Vec Ideal S1x128 .f32) :
    k3_pay1 (F := Ideal) d a h b = relu (addRow (selfLoop (N := 5000) (C := 128) a h d) b) := by
  funext i
  obtain ⟨r, j, rfl⟩ : ∃ (r : Fin 5000) (j : Fin 128), i = ix2 r j := ⟨i 0, i 1, eq_ix2 i⟩
  unfold k3_pay1
  simp only [shapeCast_self]
  show max ((a (ix2 r j) + broadcastTo S5000x128 d broadcasts_S5000x1_S5000x128 (ix2 r j) * h (ix2 r j))
    + broadcastTo S5000x128 b broadcasts_S1x128_S5000x128 (ix2 r j)) (Ideal.ofBits .f32 0x00000000#32) = _
  rw [Cert.KBodyLayout.broadcastTo_a1_ab_apply, broadcastTo_1b_ab_apply]
  rfl

/-- The head on all graphs: a product, a bias row, the positive part, a second product, a second bias row. -/
theorem head (g : Vec Ideal S256x128 .f32) (w1 : Vec Ideal S128x128 .f32) (b1 : Vec Ideal S1x128 .f32)
    (w2 : Vec Ideal S128x32 .f32) (b2 : Vec Ideal S1x32 .f32) :
    k5_pay1 (F := Ideal) g w1 b1 w2 b2
      = addRow (mm (N := 256) (K := 128) (C := 32) (relu (addRow (mm (N := 256) (K := 128) (C := 128) g w1) b1)) w2) b2 := by
  funext i
  obtain ⟨r, j, rfl⟩ : ∃ (r : Fin 256) (j : Fin 32), i = ix2 r j := ⟨i 0, i 1, eq_ix2 i⟩
  unfold k5_pay1
  simp only [shapeCast_self]
  rw [addRow_apply, mm_apply]
  show matmul dot_S256x128_S128x32_S256x32_1_0_0_1_n_n none _ _ (constant (F := Ideal) S256x32 .f32 0x00000000#32) (ix2 r j)
    + broadcastTo S256x32 b2 broadcasts_S1x32_S256x32 (ix2 r j) = _
  rw [broadcastTo_1b_ab_apply]
  refine congrArg (· + b2 (ix2 (0 : Fin 1) j)) ?_
  refine (Cert.KBodyDot.plainMatmul_apply dot_S256x128_S128x32_S256x32_1_0_0_1_n_n rfl none _ _ r j).trans ?_
  refine Finset.sum_congr rfl fun k _ => congrArg (· * w2 (ix2 k j)) ?_
  show max (matmul dot_S256x128_S128x128_S256x128_1_0_0_1_n_n none _ _ (constant (F := Ideal) S256x128 .f32 0x00000000#32) (ix2 r k)
    + broadcastTo S256x128 b1 broadcasts_S1x128_S256x128 (ix2 r k)) (Ideal.ofBits .f32 0x00000000#32) = _
  rw [broadcastTo_1b_ab_apply, relu_apply, addRow_apply, mm_apply]
  refine congrArg (fun s => max (s + b1 (ix2 (0 : Fin 1) k)) z) ?_
  exact Cert.KBodyDot.plainMatmul_apply dot_S256x128_S128x128_S256x128_1_0_0_1_n_n rfl none _ _ r k

end Cert.KernelIdeal.Tile

end
-- ==== Proof.Region5.lean ====
/-
  The head, from its one block to the whole array. The launch has a single point whose blocks are the whole arrays:
  the pooled features, the two weight matrices and the two bias rows. The result array therefore ends as
  `relu (g · W₁ + b₁) · W₂ + b₂` of the five arrays the launch found.
-/
import proofs.«171345_j52037823758431_1_alg».proof.Proof.Gen.KernelIdeal.Frame
import proofs.«171345_j52037823758431_1_alg».proof.Proof.Spec
import proofs.«171345_j52037823758431_1_alg».proof.Proof.Tiles

set_option maxRecDepth 16384

noncomputable section

namespace Cert.KernelIdeal.Reg5

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Every window's block index is `(0, 0)` at the one point. -/
theorem idx : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- Window 0's one block is its whole array. -/
theorem blk0 (c : Dev nD) (t : Fin cfg5.N) : (iblk5 V c 0 t : S256x128.Idx → EReal) = V c main_v72 := by
  obtain ⟨e0, e1, e2, e3, e4, e5, e6, e7, e8, e9, e10, e11⟩ := idx t
  funext y
  show V c main_v72 (((cfg5.win 0).blk t).view.emb y) = V c main_v72 y
  refine congrArg (V c main_v72) (funext fun a => Fin.ext ?_)
  match a with
  | ⟨0, _⟩ => show win5_0.index t (0 : Fin 2) * 256 + 1 * (y 0).val = (y 0).val; omega
  | ⟨1, _⟩ => show win5_0.index t (1 : Fin 2) * 128 + 1 * (y 1).val = (y 1).val; omega

/-- Window 1's one block is its whole array. -/
theorem blk1 (c : Dev nD) (t : Fin cfg5.N) : (iblk5 V c 1 t : S128x128.Idx → EReal) = V c main_arg7 := by
  obtain ⟨e0, e1, e2, e3, e4, e5, e6, e7, e8, e9, e10, e11⟩ := idx t
  funext y
  show V c main_arg7 (((cfg5.win 1).blk t).view.emb y) = V c main_arg7 y
  refine congrArg (V c main_arg7) (funext fun a => Fin.ext ?_)
  match a with
  | ⟨0, _⟩ => show win5_1.index t (0 : Fin 2) * 128 + 1 * (y 0).val = (y 0).val; omega
  | ⟨1, _⟩ => show win5_1.index t (1 : Fin 2) * 128 + 1 * (y 1).val = (y 1).val; omega

/-- Window 2's one block is its whole array. -/
theorem blk2 (c : Dev nD) (t : Fin cfg5.N) : (iblk5 V c 2 t : S1x128.Idx → EReal) = V c main_v73 := by
  obtain ⟨e0, e1, e2, e3, e4, e5, e6, e7, e8, e9, e10, e11⟩ := idx t
  funext y
  show V c main_v73 (((cfg5.win 2).blk t).view.emb y) = V c main_v73 y
  refine congrArg (V c main_v73) (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- Window 3's one block is its whole array. -/
theorem blk3 (c : Dev nD) (t : Fin cfg5.N) : (iblk5 V c 3 t : S128x32.Idx → EReal) = V c main_arg9 := by
  obtain ⟨e0, e1, e2, e3, e4, e5, e6, e7, e8, e9, e10, e11⟩ := idx t
  funext y
  show V c main_arg9 (((cfg5.win 3).blk t).view.emb y) = V c main_arg9 y
  refine congrArg (V c main_arg9) (funext fun a => Fin.ext ?_)
  match a with
  | ⟨0, _⟩ => show win5_3.index t (0 : Fin 2) * 128 + 1 * (y 0).val = (y 0).val; omega
  | ⟨1, _⟩ => show win5_3.index t (1 : Fin 2) * 32 + 1 * (y 1).val = (y 1).val; omega

/-- Window 4's one block is its whole array. -/
theorem blk4 (c : Dev nD) (t : Fin cfg5.N) : (iblk5 V c 4 t : S1x32.Idx → EReal) = V c main_v74 := by
  obtain ⟨e0, e1, e2, e3, e4, e5, e6, e7, e8, e9, e10, e11⟩ := idx t
  funext y
  show V c main_v74 (((cfg5.win 4).blk t).view.emb y) = V c main_v74 y
  refine congrArg (V c main_v74) (funext fun a => Fin.ext ?_)
  match a with
  | ⟨0, _⟩ => show win5_4.index t (0 : Fin 2) * 1 + 1 * (y 0).val = (y 0).val; omega
  | ⟨1, _⟩ => show win5_4.index t (1 : Fin 2) * 32 + 1 * (y 1).val = (y 1).val; omega

/-- The head's formula of the five arrays. -/
abbrev headOf (c : Dev nD) : S256x32.Idx → EReal :=
  addRow (mm (N := 256) (K := 128) (C := 32) (relu (addRow (mm (N := 256) (K := 128) (C := 128) (V c main_v72) (V c main_arg7)) (V c main_v73))) (V c main_arg9)) (V c main_v74)

/-- What the one point writes back is the head's formula of the five arrays. -/
theorem flushed (c : Dev nD) (t : Fin cfg5.N) :
    (dat5 V c).flushed 5 t = ((cfg5.win 5).blk t).view.read (Elt Ideal) (headOf V c) := by
  show (cfg5.win 5).cut (grid5.coords t) ((dat5 V c).after 5 t) = _
  rw [after5_5]
  unfold out5_5
  rw [View.canon_unit_zero hz]
  simp only [View.ld_unit_zero (S := S256x128) hz, View.ld_unit_zero (S := S128x128) hz, View.ld_unit_zero (S := S1x128) hz,
    View.ld_unit_zero (S := S128x32) hz, View.ld_unit_zero (S := S1x32) hz]
  rw [Tile.head]
  obtain ⟨e0, e1, e2, e3, e4, e5, e6, e7, e8, e9, e10, e11⟩ := idx t
  funext j
  have hj : ((cfg5.win 5).blk t).view.emb j = j := funext fun a => Fin.ext (by
    match a with
    | ⟨0, _⟩ => show win5_5.index t (0 : Fin 2) * 256 + 1 * (j 0).val = (j 0).val; omega
    | ⟨1, _⟩ => show win5_5.index t (1 : Fin 2) * 32 + 1 * (j 1).val = (j 1).val; omega)
  show addRow (mm (N := 256) (K := 128) (C := 32) (relu (addRow (mm (N := 256) (K := 128) (C := 128) (iblk5 V c 0 t) (iblk5 V c 1 t)) (iblk5 V c 2 t))) (iblk5 V c 3 t)) (iblk5 V c 4 t) j
    = headOf V c (((cfg5.win 5).blk t).view.emb j)
  rw [hj, blk0 V c t, blk1 V c t, blk2 V c t, blk3 V c t, blk4 V c t]

/-- An index of the result array is in the one point's block. -/
theorem cover (i : S256x32.Idx) : ∃ t : Fin cfg5.N, (cfg5.win 5).flush t = true ∧ i ∈ ((cfg5.win 5).blk t).view.set := by
  have hi0 : (i 0).val < 256 := (i 0).isLt
  have hi1 : (i 1).val < 32 := (i 1).isLt
  refine ⟨t5_0, flush5_5 _, ?_⟩
  show i ∈ ((View.whole main_v75).slice (win5_5.rect t5_0)).set
  rw [View.set_slice_whole, Rect.mem_set_unit]
  obtain ⟨e0, e1, e2, e3, e4, e5, e6, e7, e8, e9, e10, e11⟩ := idx t5_0
  intro a
  match a with
  | ⟨0, _⟩ => show win5_5.index t5_0 (0 : Fin 2) * 256 ≤ (i 0).val ∧ (i 0).val < win5_5.index t5_0 (0 : Fin 2) * 256 + 256; omega
  | ⟨1, _⟩ => show win5_5.index t5_0 (1 : Fin 2) * 32 ≤ (i 1).val ∧ (i 1).val < win5_5.index t5_0 (1 : Fin 2) * 32 + 32; omega

/-- THE RESULT ARRAY after the launch is the head's formula of the five arrays the launch found. -/
theorem final (c : Dev nD) : (dat5 V c).arrAt 5 cfg5.N = headOf V c :=
  (dat5 V c).arrAt_eq_of_cover 5 _ (fun t _ => flushed V c t) cover

end Cert.KernelIdeal.Reg5

end
-- ==== Proof.LibRowGatherScatter.lean ====
import Idealize.ShloMosaic.Lib.ValueIdx
import Idealize.ShloMosaic.PureOps.Ideal
import Idealize.ShloMosaic.PureOps.Ideal.Laws

noncomputable section

open scoped BigOperators

namespace Cert.RowOps

open Idealize.ShloMosaic Idealize.ShloMosaic.ValueIdx

/-! ## Membership facts about the two axes of a matrix -/

/-- Axis 1 is not the axis 0. -/
theorem one_not_mem_zero : (1 : Fin 2) ∉ [(0 : Fin 2)] := by decide
/-- Axis 1 is among the axes other than axis 0. -/
theorem one_mem_kept : (1 : Fin 2) ∈ (List.finRange 2).filter (fun a => a ∉ [(0 : Fin 2)]) := by decide
/-- Axis 0 is not among the axes other than axis 0. -/
theorem zero_not_mem_kept : (0 : Fin 2) ∉ (List.finRange 2).filter (fun a => a ∉ [(0 : Fin 2)]) := by decide
/-- A vector's one axis is not among the axes other than it. -/
theorem zero_not_mem_kept1 : (0 : Fin 1) ∉ (List.finRange 1).filter (fun a => a ∉ [(0 : Fin 1)]) := by decide

/-! ## Gathering rows of a matrix, and entries of a vector, at a column of start indices -/

section Gather
variable {α : Type}

/-- The dimension numbers of a gather of ROWS: operand `[N, C]`, start indices `[R, 1]` (one row number per result
    row), result `[R, C]`; axis 0 of the operand is collapsed and indexed, axis 1 is the offset axis with the full
    slice `C`. Their conditions `wf` are decided on literal sizes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand's entry in column `k` of the row whose number is the start index
    `idx[e, 0]`, read signed and clamped into `[0, N − 1]`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (k : Fin C) :
    Host.gather (rowGatherDims N R C wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    show (rowGatherDims N R C wf).start (ix2 e k) idx 0 + (rowGatherDims N R C wf).batchCoord (ix2 e k) 0
      + (rowGatherDims N R C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 e k) ⟨List.idxOf (0 : Fin 2) (rowGatherDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N R C wf).start (ix2 e k) idx 1 + (rowGatherDims N R C wf).batchCoord (ix2 e k) 1
      + (rowGatherDims N R C wf).offCoord (ix2 e k) 1 = k.val
    rw [GatherDims.batchCoord_eq_zero _ _ _ List.not_mem_nil]
    have hs : (rowGatherDims N R C wf).start (ix2 e k) idx 1 = 0 := by
      unfold GatherDims.start
      rw [dif_neg one_not_mem_zero]
    rw [hs]
    have hk : (1 : Fin 2) ∈ (rowGatherDims N R C wf).sKept :=
      (GatherDims.mem_sKept _ _).mpr ⟨one_not_mem_zero, List.not_mem_nil⟩
    unfold GatherDims.offCoord
    rw [dif_pos hk]
    simp only [Nat.zero_add]
    rfl

/-- The dimension numbers of a gather of ENTRIES of a vector: operand `[N]`, start indices `[R, 1]`, result `[R]`;
    the operand's one axis is collapsed and indexed, and there is no offset axis. Their conditions `wf` are decided
    on literal sizes. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand's entry whose number is the start index `idx[e, 0]`, read signed and
    clamped into `[0, N − 1]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

/-! ## Scatter-adding rows into a matrix, and entries into a vector, at a column of scatter indices -/

section Scatter

/-- An update index lands at operand index `i` exactly when on every operand axis the start (read signed, not
    clamped) plus the window coordinate is `i`'s coordinate: being inside the operand is then automatic. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hi a
      have h1 := h a
      rw [← hi]
      show _ = (((d.start j idx a + (d.window j a : ℤ)).toNat : ℕ) : ℤ)
      omega
    · intro hi
      funext a
      refine Fin.ext ?_
      have h1 := hi a
      have h2 := h a
      show (d.start j idx a + (d.window j a : ℤ)).toNat = (i a).val
      omega
  · rename_i h
    constructor
    · intro hh
      cases hh
    · intro hi
      exfalso
      apply h
      intro a
      have h1 := hi a
      have h2 := (i a).isLt
      omega

/-- The dimension numbers of a scatter of ROWS: operand `[N, C]`, scatter indices `[R, 1]` (one row number per
    update row), updates `[R, C]`; axis 0 of the operand is the inserted, indexed one, axis 1 the window axis. Their
    conditions `wf` are decided on literal sizes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- On the indexed axis the start of update `(e, k)` is the scatter index `idx[e, 0]` read signed. -/
theorem rowScatter_start0 {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) :
    (rowScatterDims N R C wf).start (ix2 e k) idx 0 = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e k)
      ⟨List.idxOf (0 : Fin 2) (rowScatterDims N R C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the window axis the start is `0`. -/
theorem rowScatter_start1 {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScatterDims N R C wf).start j idx 1 = 0 := by
  unfold ScatterDims.start
  rw [dif_neg one_not_mem_zero]

/-- On the indexed axis the window coordinate is `0`. -/
theorem rowScatter_window0 {N R C : Nat} (wf : ScatterDims.WF ⟨2, ![N, C]⟩ ⟨2, ![R, 1]⟩ ⟨2, ![R, C]⟩ [1] [0] [0] 1)
    (j : (⟨2, ![R, C]⟩ : Shape).Idx) :
    (rowScatterDims N R C wf).window j 0 = 0 := by
  unfold ScatterDims.window
  rw [dif_neg (show (0 : Fin 2) ∉ (rowScatterDims N R C wf).sKept from zero_not_mem_kept)]

/-- On the window axis the window coordinate of update `(e, k)` is `k`. -/
theorem rowScatter_window1 {N R C : Nat} (wf : ScatterDims.WF ⟨2, ![N, C]⟩ ⟨2, ![R, 1]⟩ ⟨2, ![R, C]⟩ [1] [0] [0] 1)
    (e : Fin R) (k : Fin C) :
    (rowScatterDims N R C wf).window (ix2 e k) 1 = k.val := by
  unfold ScatterDims.window
  rw [dif_pos (show (1 : Fin 2) ∈ (rowScatterDims N R C wf).sKept from one_mem_kept)]
  rfl

/-- WHERE A ROW UPDATE LANDS: update `(e, k)` lands at `(n, k')` exactly when the scatter index `idx[e, 0]`, read
    signed, is `n` and the columns agree. -/
theorem rowScatter_resultIdx {N R C w : Nat} (wf : ScatterDims.WF ⟨2, ![N, C]⟩ ⟨2, ![R, 1]⟩ ⟨2, ![R, C]⟩ [1] [0] [0] 1)
    (idx : IVec ⟨2, ![R, 1]⟩ w) (e : Fin R) (k : Fin C) (n : Fin N) (k' : Fin C) :
    (rowScatterDims N R C wf).resultIdx? (ix2 e k) idx = some (ix2 n k')
      ↔ ((idx (ix2 e (0 : Fin 1))).toInt = (n.val : ℤ) ∧ k = k') := by
  rw [resultIdx?_eq_some_iff]
  constructor
  · intro h
    have h0 := h 0
    have h1 := h 1
    rw [rowScatter_start0, rowScatter_window0] at h0
    rw [rowScatter_start1, rowScatter_window1] at h1
    refine ⟨?_, Fin.ext ?_⟩
    · have : ((ix2 n k' : (⟨2, ![N, C]⟩ : Shape).Idx) 0).val = n.val := rfl
      omega
    · have : ((ix2 n k' : (⟨2, ![N, C]⟩ : Shape).Idx) 1).val = k'.val := rfl
      omega
  · rintro ⟨h0, rfl⟩ a
    match a with
    | ⟨0, _⟩ =>
      show (rowScatterDims N R C wf).start (ix2 e k) idx 0 + ((rowScatterDims N R C wf).window (ix2 e k) 0 : ℤ) = (n.val : ℤ)
      rw [rowScatter_start0, rowScatter_window0, h0]; simp
    | ⟨1, _⟩ =>
      show (rowScatterDims N R C wf).start (ix2 e k) idx 1 + ((rowScatterDims N R C wf).window (ix2 e k) 1 : ℤ) = (k.val : ℤ)
      rw [rowScatter_start1, rowScatter_window1]; simp

/-- THE ROW SCATTER-ADD READ AT `(n, k)`: the operand's entry plus the sum, over the update rows `e` whose scatter
    index `idx[e, 0]` read signed is `n`, of the update's entry `(e, k)`; a row whose index is outside `[0, N)`
    contributes nowhere. -/
theorem rowScatterAdd_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (k : Fin C) :
    Ideal.hostScatterAdd (rowScatterDims N R C wf) x idx upd (ix2 n k)
      = x (ix2 n k) + ∑ e ∈ Finset.univ.filter (fun e : Fin R => (idx (ix2 e (0 : Fin 1))).toInt = (n.val : ℤ)),
          upd (ix2 e k) := by
  unfold Ideal.hostScatterAdd
  congr 1
  symm
  refine Finset.sum_bij (fun e _ => ix2 e k) ?_ ?_ ?_ ?_
  · intro e he
    rw [Finset.mem_filter] at he ⊢
    exact ⟨Finset.mem_univ _, (rowScatter_resultIdx wf idx e k n k).mpr ⟨he.2, rfl⟩⟩
  · intro e1 _ e2 _ h
    exact congrFun h 0
  · intro j hj
    rw [Finset.mem_filter] at hj
    rw [eq_ix2 j] at hj ⊢
    obtain ⟨h1, h2⟩ := (rowScatter_resultIdx wf idx (j 0) (j 1) n k).mp hj.2
    refine ⟨j 0, Finset.mem_filter.mpr ⟨Finset.mem_univ _, h1⟩, ?_⟩
    subst h2
    rfl
  · intro e _
    rfl

/-- The dimension numbers of a scatter of ENTRIES into a vector: operand `[N]`, scatter indices `[R, 1]`, updates
    `[R]`; the operand's one axis is the inserted, indexed one and there is no window axis. Their conditions `wf` are
    decided on literal sizes. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The start of update `e` on the operand's one axis is the scatter index `idx[e, 0]` read signed. -/
theorem vecScatter_start {N R w : Nat} (wf : ScatterDims.WF ⟨1, ![N]⟩ ⟨2, ![R, 1]⟩ ⟨1, ![R]⟩ [] [0] [0] 1)
    (idx : IVec ⟨2, ![R, 1]⟩ w) (e : Fin R) :
    (vecScatterDims N R wf).start (ix1 e) idx 0 = (idx (ix2 e (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 e)
      ⟨List.idxOf (0 : Fin 1) (vecScatterDims N R wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- There is no window axis: the window coordinate on the operand's one axis is `0`. -/
theorem vecScatter_window {N R : Nat} (wf : ScatterDims.WF ⟨1, ![N]⟩ ⟨2, ![R, 1]⟩ ⟨1, ![R]⟩ [] [0] [0] 1)
    (j : (⟨1, ![R]⟩ : Shape).Idx) :
    (vecScatterDims N R wf).window j 0 = 0 := by
  unfold ScatterDims.window
  rw [dif_neg (show (0 : Fin 1) ∉ (vecScatterDims N R wf).sKept from zero_not_mem_kept1)]

/-- WHERE AN ENTRY UPDATE LANDS: update `e` lands at `n` exactly when the scatter index `idx[e, 0]`, read signed,
    is `n`. -/
theorem vecScatter_resultIdx {N R w : Nat} (wf : ScatterDims.WF ⟨1, ![N]⟩ ⟨2, ![R, 1]⟩ ⟨1, ![R]⟩ [] [0] [0] 1)
    (idx : IVec ⟨2, ![R, 1]⟩ w) (e : Fin R) (n : Fin N) :
    (vecScatterDims N R wf).resultIdx? (ix1 e) idx = some (ix1 n)
      ↔ (idx (ix2 e (0 : Fin 1))).toInt = (n.val : ℤ) := by
  rw [resultIdx?_eq_some_iff]
  constructor
  · intro h
    have h0 := h 0
    rw [vecScatter_start, vecScatter_window] at h0
    have : ((ix1 n : (⟨1, ![N]⟩ : Shape).Idx) 0).val = n.val := rfl
    omega
  · intro h0 a
    obtain rfl : a = 0 := Subsingleton.elim _ _
    show (vecScatterDims N R wf).start (ix1 e) idx 0 + ((vecScatterDims N R wf).window (ix1 e) 0 : ℤ) = (n.val : ℤ)
    rw [vecScatter_start, vecScatter_window, h0]; simp

/-- THE VECTOR SCATTER-ADD READ AT `n`: the operand's entry plus the sum, over the updates `e` whose scatter index
    `idx[e, 0]` read signed is `n`, of the update `e`; an update whose index is outside `[0, N)` contributes
    nowhere. -/
theorem vecScatterAdd_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Ideal.hostScatterAdd (vecScatterDims N R wf) x idx upd (ix1 n)
      = x (ix1 n) + ∑ e ∈ Finset.univ.filter (fun e : Fin R => (idx (ix2 e (0 : Fin 1))).toInt = (n.val : ℤ)),
          upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, (vecScatter_resultIdx wf idx e n).mpr he.2⟩
  · intro e1 _ e2 _ h
    exact congrFun h 0
  · intro j hj
    rw [Finset.mem_filter] at hj
    rw [eq_ix1 j] at hj ⊢
    exact ⟨j 0, Finset.mem_filter.mpr ⟨Finset.mem_univ _, (vecScatter_resultIdx wf idx (j 0) n).mp hj.2⟩, rfl⟩
  · intro e _
    rfl

end Scatter

end Cert.RowOps

end
-- ==== Proof.RefSide.lean ====
/-
  The reference program, stage by stage, is the graph network of the specification.

  Each stage of the reference program is an array; read at an index `(n, j)` it is the formula the specification
  gives for it:

  * the two feature products are matrix products, `∑ k, X[n,k] · W[k,j]`;
  * each graph-convolution layer's output is `max (a[n,j] + d[n] · h[n,j] + b[j]) 0`, where `a` is the aggregated
    messages, `h` the layer's feature product, `d` the square of the node's normalisation and `b` the bias;
  * the pooled array before the division is, for each graph `g`, the sum of the rows whose graph number is `g`;
  * the head is `(max (g · W₁ + b₁) 0) · W₂ + b₂` on the pooled means `g`;
  * the second layer's edge weights and self-loop weights are the first layer's, computed again from the same edges.

  Sums are finite sums of extended reals; nothing here depends on an order of summation.
-/
import proofs.«171345_j52037823758431_1_alg».proof.Proof.Spec
import proofs.«171345_j52037823758431_1_alg».proof.Proof.LibRowGatherScatter
import proofs.«171345_j52037823758431_1_alg».proof.Proof.Gen.ReferenceIdeal.Read

noncomputable section

open scoped BigOperators

namespace Cert.ReferenceIdeal.RefValue

open Cert.ReferenceIdeal Cert.ReferenceIdeal.Read Cert.Gcn Idealize.ShloMosaic Idealize.ShloMosaic.ValueIdx

/-- Two rank-2 indices with equal coordinates are equal. -/
theorem idx2_ext {n0 n1 : Nat} {p q : (⟨2, ![n0, n1]⟩ : Shape).Idx} (h0 : (p 0).val = (q 0).val)
    (h1 : (p 1).val = (q 1).val) : p = q :=
  funext fun a => Fin.ext (by
    match a with
    | ⟨0, _⟩ => exact h0
    | ⟨1, _⟩ => exact h1)

/-- Two rank-1 indices with equal coordinates are equal. -/
theorem idx1_ext {n : Nat} {p q : (⟨1, ![n]⟩ : Shape).Idx} (h0 : (p 0).val = (q 0).val) : p = q :=
  funext fun a => Fin.ext (by
    match a with
    | ⟨0, _⟩ => exact h0)

/-- The first feature product is the matrix product of the node features and the first weight matrix:
    entry `(n, j)` is `∑ k, x0[n,k] · x3[k,j]`. -/
theorem v4_eq (x0 : (⟨S100000x128, .f32⟩ : BufTy).Contents (Elt Ideal)) (x3 : (⟨S128x128, .f32⟩ : BufTy).Contents (Elt Ideal)) :
    val_main_v4 (F := Ideal) x0 x3 = mm x0 x3 := by
  funext i
  obtain ⟨n, j, rfl⟩ : ∃ (n : Fin 100000) (j : Fin 128), i = ix2 n j := ⟨i 0, i 1, eq_ix2 i⟩
  rw [val_main_v4_apply, mm_apply]
  refine Finset.sum_congr rfl fun k _ => ?_
  rw [show lidx_main_v4 (ix2 n j) k = ix2 n k from idx2_ext rfl rfl,
    show ridx_main_v4 (ix2 n j) k = ix2 k j from idx2_ext rfl rfl]

/-- The first layer's output: at `(n, j)` it is `max (a[n,j] + d[n,0] · h[n,j] + b[0,j]) 0`, with `a` the aggregated
    messages (stage 39), `h` the first feature product (stage 4), `d` the column of squared normalisations
    (stage 40) and `b` the first bias as a row. -/
theorem v48_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal))
    (d : (⟨2, ![100000, 1]⟩ : Shape).Idx → EReal)
    (hd : ∀ n : Fin 100000, d (ix2 n (0 : Fin 1)) = val_main_v40 (F := Ideal) x1 (ix1 n))
    (b : (⟨2, ![1, 128]⟩ : Shape).Idx → EReal)
    (hb : ∀ j : Fin 128, b (ix2 (0 : Fin 1) j) = x4 (ix1 j)) :
    val_main_v48 (F := Ideal) x0 x1 x3 x4
      = relu (addRow (selfLoop (val_main_v39 (F := Ideal) x0 x1 x3) (val_main_v4 (F := Ideal) x0 x3) d) b) := by
  funext i
  obtain ⟨n, j, rfl⟩ : ∃ (n : Fin 100000) (j : Fin 128), i = ix2 n j := ⟨i 0, i 1, eq_ix2 i⟩
  rw [relu_apply, addRow_apply, selfLoop_apply, hd n, hb j]
  rw [val_main_v48_apply, val_main_v47_apply, val_main_v44_apply, val_main_v43_apply, val_main_v42_apply, val_main_v41_apply, val_main_v46_apply, val_main_v45_apply,
    val_main_call0_v0_apply, val_main_call0_cst_apply]
  rw [show idx_main_v41 (idx_main_v42 (ix2 n j)) = ix1 n from idx1_ext rfl,
    show idx_main_v45 (idx_main_v46 (ix2 n j)) = ix1 j from idx1_ext rfl]
  rfl

/-- The second feature product is the matrix product of the first layer's output and the second weight matrix:
    entry `(n, j)` is `∑ k, H₁[n,k] · x5[k,j]`. -/
theorem v49_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v49 (F := Ideal) x0 x1 x3 x4 x5 = mm (val_main_v48 (F := Ideal) x0 x1 x3 x4) x5 := by
  funext i
  obtain ⟨n, j, rfl⟩ : ∃ (n : Fin 100000) (j : Fin 128), i = ix2 n j := ⟨i 0, i 1, eq_ix2 i⟩
  rw [val_main_v49_apply, mm_apply]
  refine Finset.sum_congr rfl fun k _ => ?_
  rw [show lidx_main_v49 (ix2 n j) k = ix2 n k from idx2_ext rfl rfl,
    show ridx_main_v49 (ix2 n j) k = ix2 k j from idx2_ext rfl rfl]

/-- The second layer's output: at `(n, j)` it is `max (a[n,j] + d[n,0] · h[n,j] + b[0,j]) 0`, with `a` the aggregated
    messages of the second layer (stage 84), `h` the second feature product (stage 49), `d` the column of squared
    normalisations (stage 85) and `b` the second bias as a row. -/
theorem v93_eq (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (d : (⟨2, ![100000, 1]⟩ : Shape).Idx → EReal)
    (hd : ∀ n : Fin 100000, d (ix2 n (0 : Fin 1)) = val_main_v85 (F := Ideal) x1 (ix1 n))
    (b : (⟨2, ![1, 128]⟩ : Shape).Idx → EReal)
    (hb : ∀ j : Fin 128, b (ix2 (0 : Fin 1) j) = x6 (ix1 j)) :
    val_main_v93 (F := Ideal) x0 x1 x3 x4 x5 x6
      = relu (addRow (selfLoop (val_main_v84 (F := Ideal) x0 x1 x3 x4 x5) (val_main_v49 (F := Ideal) x0 x1 x3 x4 x5) d) b) := by
  funext i
  obtain ⟨n, j, rfl⟩ : ∃ (n : Fin 100000) (j : Fin 128), i = ix2 n j := ⟨i 0, i 1, eq_ix2 i⟩
  rw [relu_apply, addRow_apply, selfLoop_apply, hd n, hb j]
  rw [val_main_v93_apply, val_main_v92_apply, val_main_v89_apply, val_main_v88_apply, val_main_v87_apply, val_main_v86_apply, val_main_v91_apply, val_main_v90_apply,
    val_main_call1_v0_apply, val_main_call1_cst_apply]
  rw [show idx_main_v86 (idx_main_v87 (ix2 n j)) = ix1 n from idx1_ext rfl,
    show idx_main_v90 (idx_main_v91 (ix2 n j)) = ix1 j from idx1_ext rfl]
  rfl

/-- The second layer's edge weights are the first layer's: both are the product of the two endpoint
    normalisations gathered from the same inverse-square-root degree vector, computed from the same edge list. -/
theorem norm_again (x1 : (⟨S2x1600000, .i32⟩ : BufTy).Contents (Elt Ideal)) : val_main_v71 (F := Ideal) x1 = val_main_v26 (F := Ideal) x1 := rfl

/-- The second layer's self-loop weights are the first layer's: the square of the same normalisation vector. -/
theorem dinv2_again (x1 : (⟨S2x1600000, .i32⟩ : BufTy).Contents (Elt Ideal)) : val_main_v85 (F := Ideal) x1 = val_main_v40 (F := Ideal) x1 := rfl

/-- The pooled sums before the division: entry `(g, f)` is the zero the accumulator starts from plus the sum, over
    the nodes `e` whose graph number `x2[e]`, read signed, is `g`, of the second layer's output `H₂[e,f]`. -/
theorem v96_eq (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (ids : (⟨2, ![100000, 1]⟩ : Shape).Idx → BitVec 32)
    (hids : ∀ n : Fin 100000, ids (ix2 n (0 : Fin 1)) = x2 (ix1 n)) :
    val_main_v96 (F := Ideal) x0 x1 x2 x3 x4 x5 x6
      = segSum (G := 256) ids (val_main_v93 (F := Ideal) x0 x1 x3 x4 x5 x6) := by
  -- the graph numbers as a column are `ids`
  have hi : val_main_v95 (F := Ideal) x2 = ids := by
    funext i
    obtain ⟨n, c, rfl⟩ : ∃ (n : Fin 100000) (c : Fin 1), i = ix2 n c := ⟨i 0, i 1, eq_ix2 i⟩
    obtain rfl : c = 0 := Subsingleton.elim _ _
    rw [val_main_v95_apply, hids n]
    exact congrArg x2 (idx1_ext rfl)
  funext i
  obtain ⟨g, f, rfl⟩ : ∃ (g : Fin 256) (f : Fin 128), i = ix2 g f := ⟨i 0, i 1, eq_ix2 i⟩
  rw [segSum_apply]
  unfold val_main_v96
  rw [hi]
  generalize val_main_v93 (F := Ideal) x0 x1 x3 x4 x5 x6 = H
  -- the scatter is a scatter-add of rows: the accumulator's entry plus the rows whose number is `g`
  refine (Cert.RowOps.rowScatterAdd_apply Facts₀.scatter_S256x128_S100000x1_S100000x128_1_0_0_1_wf
    (val_main_v94 (F := Ideal)) ids H g f).trans ?_
  rw [val_main_v94_apply, val_main_cst_18_apply]
  rfl

/-- The head on the pooled means `g` (stage 105): the output at `(n, j)` is
    `∑ k, (max (∑ l, g[n,l] · x7[l,k] + b1[0,k]) 0) · x9[k,j] + b2[0,j]`, with `b1`, `b2` the two biases as rows. -/
theorem v114_eq (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x32, .f32⟩ : BufTy).Contents (Elt Ideal)) (x10 : (⟨S32, .f32⟩ : BufTy).Contents (Elt Ideal))
    (g : (⟨2, ![256, 128]⟩ : Shape).Idx → EReal) (hg : g = val_main_v105 (F := Ideal) x0 x1 x2 x3 x4 x5 x6)
    (b1 : (⟨2, ![1, 128]⟩ : Shape).Idx → EReal) (hb1 : ∀ j : Fin 128, b1 (ix2 (0 : Fin 1) j) = x8 (ix1 j))
    (b2 : (⟨2, ![1, 32]⟩ : Shape).Idx → EReal) (hb2 : ∀ j : Fin 32, b2 (ix2 (0 : Fin 1) j) = x10 (ix1 j)) :
    val_main_v114 (F := Ideal) x0 x1 x2 x3 x4 x5 x6 x7 x8 x9 x10
      = addRow (mm (relu (addRow (mm g x7) b1)) x9) b2 := by
  subst hg
  -- the hidden layer: `max (g · x7 + b1) 0`
  have h110 : val_main_v110 (F := Ideal) x0 x1 x2 x3 x4 x5 x6 x7 x8
      = relu (addRow (mm (val_main_v105 (F := Ideal) x0 x1 x2 x3 x4 x5 x6) x7) b1) := by
    funext i
    obtain ⟨n, j, rfl⟩ : ∃ (n : Fin 256) (j : Fin 128), i = ix2 n j := ⟨i 0, i 1, eq_ix2 i⟩
    rw [relu_apply, addRow_apply, mm_apply, hb1 j]
    rw [val_main_v110_apply, val_main_v109_apply, val_main_v106_apply, val_main_v108_apply, val_main_v107_apply,
      val_main_call2_v0_apply, val_main_call2_cst_apply]
    rw [show idx_main_v107 (idx_main_v108 (ix2 n j)) = ix1 j from idx1_ext rfl]
    have hs : ∑ k : Fin 128, (val_main_v105 (F := Ideal) x0 x1 x2 x3 x4 x5 x6) (lidx_main_v106 (ix2 n j) k) * x7 (ridx_main_v106 (ix2 n j) k)
        = ∑ k : Fin 128, (val_main_v105 (F := Ideal) x0 x1 x2 x3 x4 x5 x6) (ix2 n k) * x7 (ix2 k j) :=
      Finset.sum_congr rfl fun k _ => by
        rw [show lidx_main_v106 (ix2 n j) k = ix2 n k from idx2_ext rfl rfl,
          show ridx_main_v106 (ix2 n j) k = ix2 k j from idx2_ext rfl rfl]
    rw [hs]
    rfl
  funext i
  obtain ⟨n, j, rfl⟩ : ∃ (n : Fin 256) (j : Fin 32), i = ix2 n j := ⟨i 0, i 1, eq_ix2 i⟩
  rw [addRow_apply, mm_apply, hb2 j, ← h110]
  rw [val_main_v114_apply, val_main_v111_apply, val_main_v113_apply, val_main_v112_apply]
  rw [show idx_main_v112 (idx_main_v113 (ix2 n j)) = ix1 j from idx1_ext rfl]
  have hs : ∑ k : Fin 128, (val_main_v110 (F := Ideal) x0 x1 x2 x3 x4 x5 x6 x7 x8) (lidx_main_v111 (ix2 n j) k) * x9 (ridx_main_v111 (ix2 n j) k)
      = ∑ k : Fin 128, (val_main_v110 (F := Ideal) x0 x1 x2 x3 x4 x5 x6 x7 x8) (ix2 n k) * x9 (ix2 k j) :=
    Finset.sum_congr rfl fun k _ => by
      rw [show lidx_main_v111 (ix2 n j) k = ix2 n k from idx2_ext rfl rfl,
        show ridx_main_v111 (ix2 n j) k = ix2 k j from idx2_ext rfl rfl]
  rw [hs]
  rfl

end Cert.ReferenceIdeal.RefValue

end
-- ==== Proof.Region0.lean ====
/-
  The first feature transform, from tiles to the whole array. The launch walks the 100000 rows in 20 tiles of 5000;
  at tile `t` the body reads rows `5000 t … 5000 t + 4999` of the features and all of the weights and writes the same
  rows of the result. The tiles cover every row once, so the result array ends as the matrix product of the two
  arrays the launch found — whatever those arrays are.
-/
import proofs.«171345_j52037823758431_1_alg».proof.Proof.Gen.KernelIdeal.Frame
import proofs.«171345_j52037823758431_1_alg».proof.Proof.Spec
import proofs.«171345_j52037823758431_1_alg».proof.Proof.Tiles

set_option maxRecDepth 16384

noncomputable section

namespace Cert.KernelIdeal.Reg0

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the features and the result move down one tile per point, the weights stay. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is rows `5000 t …` of the product of the two arrays. -/
theorem flushed (c : Dev nD) (t : Fin cfg0.N) :
    (dat0 V c).flushed 2 t = ((cfg0.win 2).blk t).view.read (Elt Ideal)
      (mm (N := 100000) (K := 128) (C := 128) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [Tile.transform1]
  obtain ⟨e0, e1, e2, e3, e4, e5⟩ := idx t
  funext j
  show mm (N := 5000) (K := 128) (C := 128) (iblk0 V c 0 t) (iblk0 V c 1 t) j
    = mm (N := 100000) (K := 128) (C := 128) (V c main_arg0) (V c main_arg3) (((cfg0.win 2).blk t).view.emb j)
  unfold mm
  refine Finset.sum_congr rfl fun k _ => ?_
  have hj0 : (j 0).val < 5000 := (j 0).isLt
  refine congrArg₂ (· * ·) ?_ ?_
  · show V c main_arg0 (((cfg0.win 0).blk t).view.emb _) = V c main_arg0 _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · show V c main_arg3 (((cfg0.win 1).blk t).view.emb _) = V c main_arg3 _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the result array is in point `t`'s block iff each coordinate is in the block's range. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v28).slice (win0_2.rect t)).set ↔ _
  rw [View.set_slice_whole, Rect.mem_set_unit]
  exact Iff.rfl

/-- Every row is in the tile of the point `row / 5000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_2 _, ?_⟩
  rw [mem_blk]
  obtain ⟨e0, e1, e2, e3, e4, e5⟩ := idx ⟨(i 0).val / 5000, ht⟩
  intro a
  match a with
  | ⟨0, _⟩ =>
    show win0_2.index ⟨(i 0).val / 5000, ht⟩ (0 : Fin 2) * 5000 ≤ (i 0).val ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val ∧ (i 1).val < win0_2.index ⟨(i 0).val / 5000, ht⟩ (1 : Fin 2) * 128 + 128
    omega

/-- THE RESULT ARRAY after the launch is the product of the two arrays the launch found. -/
theorem final (c : Dev nD) :
    (dat0 V c).arrAt 2 cfg0.N = mm (N := 100000) (K := 128) (C := 128) (V c main_arg0) (V c main_arg3) :=
  (dat0 V c).arrAt_eq_of_cover 2 _ (fun t _ => flushed V c t) cover

end Cert.KernelIdeal.Reg0

end
-- ==== Proof.Region1.lean ====
/-
  The first combine step, from tiles to the whole array. At tile `t` the body reads rows `5000 t … 5000 t + 4999` of
  the aggregated messages, of the transformed features and of the column of self-loop weights, and the whole bias
  row, and writes the same rows of the result: the positive part of `agg + d · h + bias`. The tiles cover every row
  once, so the result array is that formula of the four arrays the launch found.
-/
import proofs.«171345_j52037823758431_1_alg».proof.Proof.Gen.KernelIdeal.Frame
import proofs.«171345_j52037823758431_1_alg».proof.Proof.Spec
import proofs.«171345_j52037823758431_1_alg».proof.Proof.Tiles

set_option maxRecDepth 16384

noncomputable section

namespace Cert.KernelIdeal.Reg1

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the three row-tiled inputs and the result move down one tile per point, the
    bias row stays. -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is rows `5000 t …` of the combine formula of the four arrays. -/
theorem flushed (c : Dev nD) (t : Fin cfg1.N) :
    (dat1 V c).flushed 4 t = ((cfg1.win 4).blk t).view.read (Elt Ideal)
      (relu (addRow (selfLoop (N := 100000) (C := 128) (V c main_v41) (V c main_v28) (V c main_v27)) (V c main_v42))) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  rw [Tile.combine1]
  obtain ⟨e0, e1, e2, e3, e4, e5, e6, e7, e8, e9⟩ := idx t
  funext j
  show relu (addRow (selfLoop (N := 5000) (C := 128) (iblk1 V c 0 t) (iblk1 V c 1 t) (iblk1 V c 2 t)) (iblk1 V c 3 t)) j
    = relu (addRow (selfLoop (N := 100000) (C := 128) (V c main_v41) (V c main_v28) (V c main_v27)) (V c main_v42)) (((cfg1.win 4).blk t).view.emb j)
  unfold relu addRow selfLoop
  have hj0 : (j 0).val < 5000 := (j 0).isLt
  have hj1 : (j 1).val < 128 := (j 1).isLt
  refine congrArg (max · z) (congrArg₂ (· + ·) (congrArg₂ (· + ·) ?_ (congrArg₂ (· * ·) ?_ ?_)) ?_)
  · show V c main_v41 (((cfg1.win 0).blk t).view.emb j) = V c main_v41 (((cfg1.win 4).blk t).view.emb j)
    refine congrArg (V c main_v41) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  · show V c main_v27 (((cfg1.win 2).blk t).view.emb _) = V c main_v27 _
    refine congrArg (V c main_v27) (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  · show V c main_v28 (((cfg1.win 1).blk t).view.emb j) = V c main_v28 (((cfg1.win 4).blk t).view.emb j)
    refine congrArg (V c main_v28) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  · show V c main_v42 (((cfg1.win 3).blk t).view.emb _) = V c main_v42 _
    refine congrArg (V c main_v42) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An index of the result array is in point `t`'s block iff each coordinate is in the block's range. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- Every row is in the tile of the point `row / 5000`. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_4 _, ?_⟩
  rw [mem_blk]
  obtain ⟨e0, e1, e2, e3, e4, e5, e6, e7, e8, e9⟩ := idx ⟨(i 0).val / 5000, ht⟩
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    omega

/-- THE RESULT ARRAY after the launch is the combine formula of the four arrays the launch found. -/
theorem final (c : Dev nD) :
    (dat1 V c).arrAt 4 cfg1.N
      = relu (addRow (selfLoop (N := 100000) (C := 128) (V c main_v41) (V c main_v28) (V c main_v27)) (V c main_v42)) :=
  (dat1 V c).arrAt_eq_of_cover 4 _ (fun t _ => flushed V c t) cover

end Cert.KernelIdeal.Reg1

end
-- ==== Proof.Region2.lean ====
/-
  The second feature transform, from tiles to the whole array. The launch walks the 100000 rows in 20 tiles of 5000;
  at tile `t` the body reads rows `5000 t … 5000 t + 4999` of the first layer's output and all of the second weights and writes the same
  rows of the result. The tiles cover every row once, so the result array ends as the matrix product of the two
  arrays the launch found — whatever those arrays are.
-/
import proofs.«171345_j52037823758431_1_alg».proof.Proof.Gen.KernelIdeal.Frame
import proofs.«171345_j52037823758431_1_alg».proof.Proof.Spec
import proofs.«171345_j52037823758431_1_alg».proof.Proof.Tiles

set_option maxRecDepth 16384

noncomputable section

namespace Cert.KernelIdeal.Reg2

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the features and the result move down one tile per point, the weights stay. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is rows `5000 t …` of the product of the two arrays. -/
theorem flushed (c : Dev nD) (t : Fin cfg2.N) :
    (dat2 V c).flushed 2 t = ((cfg2.win 2).blk t).view.read (Elt Ideal)
      (mm (N := 100000) (K := 128) (C := 128) (V c main_v43) (V c main_arg5)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  rw [Tile.transform2]
  obtain ⟨e0, e1, e2, e3, e4, e5⟩ := idx t
  funext j
  show mm (N := 5000) (K := 128) (C := 128) (iblk2 V c 0 t) (iblk2 V c 1 t) j
    = mm (N := 100000) (K := 128) (C := 128) (V c main_v43) (V c main_arg5) (((cfg2.win 2).blk t).view.emb j)
  unfold mm
  refine Finset.sum_congr rfl fun k _ => ?_
  have hj0 : (j 0).val < 5000 := (j 0).isLt
  refine congrArg₂ (· * ·) ?_ ?_
  · show V c main_v43 (((cfg2.win 0).blk t).view.emb _) = V c main_v43 _
    refine congrArg (V c main_v43) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · show V c main_arg5 (((cfg2.win 1).blk t).view.emb _) = V c main_arg5 _
    refine congrArg (V c main_arg5) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the result array is in point `t`'s block iff each coordinate is in the block's range. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Every row is in the tile of the point `row / 5000`. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  have ht : (i 0).val / 5000 < cfg2.N := by rw [hN]; omega
  refine ⟨⟨(i 0).val / 5000, ht⟩, flush2_2 _, ?_⟩
  rw [mem_blk]
  obtain ⟨e0, e1, e2, e3, e4, e5⟩ := idx ⟨(i 0).val / 5000, ht⟩
  intro a
  match a with
  | ⟨0, _⟩ =>
    show win2_2.index ⟨(i 0).val / 5000, ht⟩ (0 : Fin 2) * 5000 ≤ (i 0).val ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 128 ≤ (i 1).val ∧ (i 1).val < win2_2.index ⟨(i 0).val / 5000, ht⟩ (1 : Fin 2) * 128 + 128
    omega

/-- THE RESULT ARRAY after the launch is the product of the two arrays the launch found. -/
theorem final (c : Dev nD) :
    (dat2 V c).arrAt 2 cfg2.N = mm (N := 100000) (K := 128) (C := 128) (V c main_v43) (V c main_arg5) :=
  (dat2 V c).arrAt_eq_of_cover 2 _ (fun t _ => flushed V c t) cover

end Cert.KernelIdeal.Reg2

end
-- ==== Proof.Region3.lean ====
/-
  The second combine step, from tiles to the whole array. At tile `t` the body reads rows `5000 t … 5000 t + 4999` of
  the aggregated messages, of the transformed features and of the column of self-loop weights, and the whole bias
  row, and writes the same rows of the result: the positive part of `agg + d · h + bias`. The tiles cover every row
  once, so the result array is that formula of the four arrays the launch found.
-/
import proofs.«171345_j52037823758431_1_alg».proof.Proof.Gen.KernelIdeal.Frame
import proofs.«171345_j52037823758431_1_alg».proof.Proof.Spec
import proofs.«171345_j52037823758431_1_alg».proof.Proof.Tiles

set_option maxRecDepth 16384

noncomputable section

namespace Cert.KernelIdeal.Reg3

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index maps over the grid: the three row-tiled inputs and the result move down one tile per point, the
    bias row stays. -/
theorem idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is rows `5000 t …` of the combine formula of the four arrays. -/
theorem flushed (c : Dev nD) (t : Fin cfg3.N) :
    (dat3 V c).flushed 4 t = ((cfg3.win 4).blk t).view.read (Elt Ideal)
      (relu (addRow (selfLoop (N := 100000) (C := 128) (V c main_v57) (V c main_v44) (V c main_v27)) (V c main_v58))) := by
  show (cfg3.win 4).cut (grid3.coords t) ((dat3 V c).after 4 t) = _
  rw [after3_4]
  unfold out3_4
  rw [View.canon_unit_zero hz]
  simp only [View.ld_unit_zero (S := S5000x128) hz, View.ld_unit_zero (S := S5000x1) hz, View.ld_unit_zero (S := S1x128) hz]
  rw [Tile.combine3]
  obtain ⟨e0, e1, e2, e3, e4, e5, e6, e7, e8, e9⟩ := idx t
  funext j
  show relu (addRow (selfLoop (N := 5000) (C := 128) (iblk3 V c 0 t) (iblk3 V c 1 t) (iblk3 V c 2 t)) (iblk3 V c 3 t)) j
    = relu (addRow (selfLoop (N := 100000) (C := 128) (V c main_v57) (V c main_v44) (V c main_v27)) (V c main_v58)) (((cfg3.win 4).blk t).view.emb j)
  unfold relu addRow selfLoop
  have hj0 : (j 0).val < 5000 := (j 0).isLt
  have hj1 : (j 1).val < 128 := (j 1).isLt
  refine congrArg (max · z) (congrArg₂ (· + ·) (congrArg₂ (· + ·) ?_ (congrArg₂ (· * ·) ?_ ?_)) ?_)
  · show V c main_v57 (((cfg3.win 0).blk t).view.emb j) = V c main_v57 (((cfg3.win 4).blk t).view.emb j)
    refine congrArg (V c main_v57) (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  · show V c main_v27 (((cfg3.win 2).blk t).view.emb _) = V c main_v27 _
    refine congrArg (V c main_v27) (funext fun a => Fin.ext ?_)
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  · show V c main_v44 (((cfg3.win 1).blk t).view.emb j) = V c main_v44 (((cfg3.win 4).blk t).view.emb j)
    refine congrArg (V c main_v44) (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  · show V c main_v58 (((cfg3.win 3).blk t).view.emb _) = V c main_v58 _
    refine congrArg (V c main_v58) (funext fun a => Fin.ext ?_)
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega

/-- An index of the result array is in point `t`'s block iff each coordinate is in the block's range. -/
theorem mem_blk (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v59).slice (win3_4.rect t)).set ↔ _
  rw [View.set_slice_whole, Rect.mem_set_unit]
  exact Iff.rfl

/-- Every row is in the tile of the point `row / 5000`. -/
theorem cover (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : cfg3.N = 20 := N_3
  have ht : (i 0).val / 5000 < cfg3.N := by rw [hN]; omega
  refine ⟨⟨(i 0).val / 5000, ht⟩, flush3_4 _, ?_⟩
  rw [mem_blk]
  obtain ⟨e0, e1, e2, e3, e4, e5, e6, e7, e8, e9⟩ := idx ⟨(i 0).val / 5000, ht⟩
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e8]; show (i 0).val / 5000 * 5000 ≤ (i 0).val ∧ (i 0).val < (i 0).val / 5000 * 5000 + 5000; omega
  | ⟨1, _⟩ =>
    show win3_4.index ⟨(i 0).val / 5000, ht⟩ (1 : Fin 2) * 128 ≤ (i 1).val ∧ (i 1).val < win3_4.index ⟨(i 0).val / 5000, ht⟩ (1 : Fin 2) * 128 + 128
    omega

/-- THE RESULT ARRAY after the launch is the combine formula of the four arrays the launch found. -/
theorem final (c : Dev nD) :
    (dat3 V c).arrAt 4 cfg3.N
      = relu (addRow (selfLoop (N := 100000) (C := 128) (V c main_v57) (V c main_v44) (V c main_v27)) (V c main_v58)) :=
  (dat3 V c).arrAt_eq_of_cover 4 _ (fun t _ => flushed V c t) cover

end Cert.KernelIdeal.Reg3

end
-- ==== Proof.FoldA.lean ====
/-
  The idealized kernel program's fold, read stage by stage. The program is: a stretch of host operations that cut the
  edge list into sources and destinations, count in-degrees, take `deg^(-1/2)` and form the edge weights and the
  self-loop weights; the first feature transform; the host gather / weight / scatter-add of the first aggregation; the
  first combine; the second transform; the second aggregation; the second combine; the host iota and reshapes; the
  pooling launch; the host counts and division; the head. Each boundary value is identified with the stage of the
  reference that computes the same function of the same arguments; the host gather and scatter chains are the same
  operations on both sides, so they are carried as they are and never opened.
-/
import proofs.«171345_j52037823758431_1_alg».proof.Proof.Gen.KernelIdeal.Frame
import proofs.«171345_j52037823758431_1_alg».proof.Proof.Gen.ReferenceIdeal.Read
import proofs.«171345_j52037823758431_1_alg».proof.Proof.Spec
import proofs.«171345_j52037823758431_1_alg».proof.Proof.Region0
import proofs.«171345_j52037823758431_1_alg».proof.Proof.Region1
import proofs.«171345_j52037823758431_1_alg».proof.Proof.Region2
import proofs.«171345_j52037823758431_1_alg».proof.Proof.Region3
import proofs.«171345_j52037823758431_1_alg».proof.Proof.Region5
import proofs.«171345_j52037823758431_1_alg».proof.Proof.RefSide
import proofs.«171345_j52037823758431_1_alg».proof.Proof.LibKernelLayout
import Idealize.ShloMosaic.Lib.StableHlo.Run
import Idealize.ShloMosaic.Lib.ValueLayout

set_option maxRecDepth 16384

noncomputable section

namespace Cert.KernelIdeal.Fold

open Cert.KernelIdeal Cert.KernelIdeal.Gen Cert.Gcn Cert.ReferenceIdeal.Read Cert.ReferenceIdeal.RefValue
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (ρ : Dev nD → PrngReg)

/-! ## The argument arrays -/

abbrev a0 (c : Dev nD) : S100000x128.Idx → EReal := m ((c : Thread nD τ).loc main_arg0)
abbrev a1 (c : Dev nD) : S2x1600000.Idx → BitVec 32 := m ((c : Thread nD τ).loc main_arg1)
abbrev a2 (c : Dev nD) : S100000.Idx → BitVec 32 := m ((c : Thread nD τ).loc main_arg2)
abbrev a3 (c : Dev nD) : S128x128.Idx → EReal := m ((c : Thread nD τ).loc main_arg3)
abbrev a4 (c : Dev nD) : S128.Idx → EReal := m ((c : Thread nD τ).loc main_arg4)
abbrev a5 (c : Dev nD) : S128x128.Idx → EReal := m ((c : Thread nD τ).loc main_arg5)
abbrev a6 (c : Dev nD) : S128.Idx → EReal := m ((c : Thread nD τ).loc main_arg6)
abbrev a7 (c : Dev nD) : S128x128.Idx → EReal := m ((c : Thread nD τ).loc main_arg7)
abbrev a8 (c : Dev nD) : S128.Idx → EReal := m ((c : Thread nD τ).loc main_arg8)
abbrev a9 (c : Dev nD) : S128x32.Idx → EReal := m ((c : Thread nD τ).loc main_arg9)
abbrev a10 (c : Dev nD) : S32.Idx → EReal := m ((c : Thread nD τ).loc main_arg10)

/-! ## After the first host stretch: sources, destinations, edge weights, self-loop weights -/

theorem h1_v1 (c : Dev nD) : W1 m ρ c (Proc.devRef .tc main_v1) = val_main_v1 (F := Ideal) (a1 m c) := by
  show StableHlo.after hostOps0 (W0 m ρ c) (Proc.devRef .tc main_v1) = _
  after_results_simp
  rfl
theorem h1_v3 (c : Dev nD) : W1 m ρ c (Proc.devRef .tc main_v3) = val_main_v3 (F := Ideal) (a1 m c) := by
  show StableHlo.after hostOps0 (W0 m ρ c) (Proc.devRef .tc main_v3) = _
  after_results_simp
  rfl
theorem h1_v25 (c : Dev nD) : W1 m ρ c (Proc.devRef .tc main_v25) = val_main_v26 (F := Ideal) (a1 m c) := by
  show StableHlo.after hostOps0 (W0 m ρ c) (Proc.devRef .tc main_v25) = _
  after_results_simp
  generalize hD : Host.rsqrt (F := Ideal) _ = D
  have hD' : D = val_main_v11 (F := Ideal) (a1 m c) := by
    rw [← hD]
    unfold val_main_v11 val_main_v10 val_main_v8 val_main_v9 val_main_v6 val_main_v7 val_main_v5 val_main_v3 val_main_v2 val_main_cst val_main_cst_0 val_main_cst_1
    rfl
  rw [hD']
  unfold val_main_v26 val_main_v18 val_main_v25 val_main_v17 val_main_v24 val_main_v16 val_main_v23 val_main_v13 val_main_v15 val_main_v12 val_main_v14 val_main_v20 val_main_v22 val_main_v19 val_main_v21 val_main_v1 val_main_v0 val_main_v3 val_main_v2 val_main_c val_main_c_2 val_main_c_3 val_main_c_4
  rfl
theorem h1_v27 (c : Dev nD) : W1 m ρ c (Proc.devRef .tc main_v27) = shapeCast S100000x1 (val_main_v40 (F := Ideal) (a1 m c)) shapeCasts_S100000_S100000x1 := by
  show StableHlo.after hostOps0 (W0 m ρ c) (Proc.devRef .tc main_v27) = _
  after_results_simp
  generalize hD : Host.rsqrt (F := Ideal) _ = D
  have hD' : D = val_main_v11 (F := Ideal) (a1 m c) := by
    rw [← hD]
    unfold val_main_v11 val_main_v10 val_main_v8 val_main_v9 val_main_v6 val_main_v7 val_main_v5 val_main_v3 val_main_v2 val_main_cst val_main_cst_0 val_main_cst_1
    rfl
  rw [hD']
  rfl
theorem h1_arg0 (c : Dev nD) : W1 m ρ c (Proc.devRef .tc main_arg0) = a0 m c := by
  show StableHlo.after hostOps0 (W0 m ρ c) (Proc.devRef .tc main_arg0) = _
  after_results_simp
  try rfl
theorem h1_arg3 (c : Dev nD) : W1 m ρ c (Proc.devRef .tc main_arg3) = a3 m c := by
  show StableHlo.after hostOps0 (W0 m ρ c) (Proc.devRef .tc main_arg3) = _
  after_results_simp
  try rfl
theorem h1_arg4 (c : Dev nD) : W1 m ρ c (Proc.devRef .tc main_arg4) = a4 m c := by
  show StableHlo.after hostOps0 (W0 m ρ c) (Proc.devRef .tc main_arg4) = _
  after_results_simp
  try rfl
theorem h1_arg5 (c : Dev nD) : W1 m ρ c (Proc.devRef .tc main_arg5) = a5 m c := by
  show StableHlo.after hostOps0 (W0 m ρ c) (Proc.devRef .tc main_arg5) = _
  after_results_simp
  try rfl
theorem h1_arg6 (c : Dev nD) : W1 m ρ c (Proc.devRef .tc main_arg6) = a6 m c := by
  show StableHlo.after hostOps0 (W0 m ρ c) (Proc.devRef .tc main_arg6) = _
  after_results_simp
  try rfl

/-! ## After the first feature transform -/

theorem h2_v1 (c : Dev nD) : W2 m ρ c (Proc.devRef .tc main_v1) = val_main_v1 (F := Ideal) (a1 m c) :=
  (W2_of_ne m ρ c main_v1 (by decide)).trans (h1_v1 m ρ c)
theorem h2_v3 (c : Dev nD) : W2 m ρ c (Proc.devRef .tc main_v3) = val_main_v3 (F := Ideal) (a1 m c) :=
  (W2_of_ne m ρ c main_v3 (by decide)).trans (h1_v3 m ρ c)
theorem h2_v25 (c : Dev nD) : W2 m ρ c (Proc.devRef .tc main_v25) = val_main_v26 (F := Ideal) (a1 m c) :=
  (W2_of_ne m ρ c main_v25 (by decide)).trans (h1_v25 m ρ c)
theorem h2_v27 (c : Dev nD) : W2 m ρ c (Proc.devRef .tc main_v27) = shapeCast S100000x1 (val_main_v40 (F := Ideal) (a1 m c)) shapeCasts_S100000_S100000x1 :=
  (W2_of_ne m ρ c main_v27 (by decide)).trans (h1_v27 m ρ c)
theorem h2_arg4 (c : Dev nD) : W2 m ρ c (Proc.devRef .tc main_arg4) = a4 m c :=
  (W2_of_ne m ρ c main_arg4 (by decide)).trans (h1_arg4 m ρ c)
theorem h2_arg5 (c : Dev nD) : W2 m ρ c (Proc.devRef .tc main_arg5) = a5 m c :=
  (W2_of_ne m ρ c main_arg5 (by decide)).trans (h1_arg5 m ρ c)
theorem h2_arg6 (c : Dev nD) : W2 m ρ c (Proc.devRef .tc main_arg6) = a6 m c :=
  (W2_of_ne m ρ c main_arg6 (by decide)).trans (h1_arg6 m ρ c)

/-- The transformed features are the reference's first product. -/
theorem h2_v28 (c : Dev nD) : W2 m ρ c (Proc.devRef .tc main_v28) = val_main_v4 (F := Ideal) (a0 m c) (a3 m c) := by
  refine (W2_arr m ρ c 2).trans ((Reg0.final (V1 m ρ) c).trans ?_)
  rw [show V1 m ρ c main_arg0 = a0 m c from h1_arg0 m ρ c, show V1 m ρ c main_arg3 = a3 m c from h1_arg3 m ρ c]
  exact (v4_eq _ _).symm

/-! ## After the first aggregation's host stretch -/

theorem h3_v1 (c : Dev nD) : W3 m ρ c (Proc.devRef .tc main_v1) = val_main_v1 (F := Ideal) (a1 m c) := by
  show StableHlo.after hostOps1 (W2 m ρ c) (Proc.devRef .tc main_v1) = _
  after_results_simp
  exact h2_v1 m ρ c
theorem h3_v3 (c : Dev nD) : W3 m ρ c (Proc.devRef .tc main_v3) = val_main_v3 (F := Ideal) (a1 m c) := by
  show StableHlo.after hostOps1 (W2 m ρ c) (Proc.devRef .tc main_v3) = _
  after_results_simp
  exact h2_v3 m ρ c
theorem h3_v25 (c : Dev nD) : W3 m ρ c (Proc.devRef .tc main_v25) = val_main_v26 (F := Ideal) (a1 m c) := by
  show StableHlo.after hostOps1 (W2 m ρ c) (Proc.devRef .tc main_v25) = _
  after_results_simp
  exact h2_v25 m ρ c
theorem h3_v27 (c : Dev nD) : W3 m ρ c (Proc.devRef .tc main_v27) = shapeCast S100000x1 (val_main_v40 (F := Ideal) (a1 m c)) shapeCasts_S100000_S100000x1 := by
  show StableHlo.after hostOps1 (W2 m ρ c) (Proc.devRef .tc main_v27) = _
  after_results_simp
  exact h2_v27 m ρ c
theorem h3_arg5 (c : Dev nD) : W3 m ρ c (Proc.devRef .tc main_arg5) = a5 m c := by
  show StableHlo.after hostOps1 (W2 m ρ c) (Proc.devRef .tc main_arg5) = _
  after_results_simp
  exact h2_arg5 m ρ c
theorem h3_arg6 (c : Dev nD) : W3 m ρ c (Proc.devRef .tc main_arg6) = a6 m c := by
  show StableHlo.after hostOps1 (W2 m ρ c) (Proc.devRef .tc main_arg6) = _
  after_results_simp
  exact h2_arg6 m ρ c
theorem h3_v28 (c : Dev nD) : W3 m ρ c (Proc.devRef .tc main_v28) = val_main_v4 (F := Ideal) (a0 m c) (a3 m c) := by
  show StableHlo.after hostOps1 (W2 m ρ c) (Proc.devRef .tc main_v28) = _
  after_results_simp
  exact h2_v28 m ρ c

/-- The aggregated messages of the first layer: the same gather, weighting and scatter-add as the reference's, of equal
    operands. -/
theorem h3_v41 (c : Dev nD) : W3 m ρ c (Proc.devRef .tc main_v41) = val_main_v39 (F := Ideal) (a0 m c) (a1 m c) (a3 m c) := by
  show StableHlo.after hostOps1 (W2 m ρ c) (Proc.devRef .tc main_v41) = _
  after_results_simp
  rw [h2_v28 m ρ c, h2_v1 m ρ c, h2_v3 m ρ c, h2_v25 m ρ c]
  unfold val_main_v39 val_main_v38 val_main_v37 val_main_cst_7 val_main_v36 val_main_v35 val_main_v27 val_main_v34 val_main_v33 val_main_v32 val_main_v29 val_main_v31 val_main_v28 val_main_v30 val_main_c_5 val_main_c_6
  rfl
/-- The first bias as a row. -/
theorem h3_v42 (c : Dev nD) : W3 m ρ c (Proc.devRef .tc main_v42) = shapeCast S1x128 (a4 m c) shapeCasts_S128_S1x128 := by
  show StableHlo.after hostOps1 (W2 m ρ c) (Proc.devRef .tc main_v42) = _
  after_results_simp
  rw [h2_arg4 m ρ c]
  rfl

/-! ## After the first combine -/

theorem h4_v1 (c : Dev nD) : W4 m ρ c (Proc.devRef .tc main_v1) = val_main_v1 (F := Ideal) (a1 m c) :=
  (W4_of_ne m ρ c main_v1 (by decide)).trans (h3_v1 m ρ c)
theorem h4_v3 (c : Dev nD) : W4 m ρ c (Proc.devRef .tc main_v3) = val_main_v3 (F := Ideal) (a1 m c) :=
  (W4_of_ne m ρ c main_v3 (by decide)).trans (h3_v3 m ρ c)
theorem h4_v25 (c : Dev nD) : W4 m ρ c (Proc.devRef .tc main_v25) = val_main_v26 (F := Ideal) (a1 m c) :=
  (W4_of_ne m ρ c main_v25 (by decide)).trans (h3_v25 m ρ c)
/-- The self-loop weights are an input of the first combine: the launch leaves an input array as it found it. -/
theorem h4_v27 (c : Dev nD) : W4 m ρ c (Proc.devRef .tc main_v27) = shapeCast S100000x1 (val_main_v40 (F := Ideal) (a1 m c)) shapeCasts_S100000_S100000x1 :=
  ((W4_arr m ρ c 2).trans (((dat1 (V3 m ρ) c).arrAt_in 2 rfl _).trans (A_eq1 (V3 m ρ) c 2))).trans (h3_v27 m ρ c)
theorem h4_arg5 (c : Dev nD) : W4 m ρ c (Proc.devRef .tc main_arg5) = a5 m c :=
  (W4_of_ne m ρ c main_arg5 (by decide)).trans (h3_arg5 m ρ c)
theorem h4_arg6 (c : Dev nD) : W4 m ρ c (Proc.devRef .tc main_arg6) = a6 m c :=
  (W4_of_ne m ρ c main_arg6 (by decide)).trans (h3_arg6 m ρ c)

/-- The first layer's output is the reference's. -/
theorem h4_v43 (c : Dev nD) : W4 m ρ c (Proc.devRef .tc main_v43) = val_main_v48 (F := Ideal) (a0 m c) (a1 m c) (a3 m c) (a4 m c) := by
  refine (W4_arr m ρ c 4).trans ((Reg1.final (V3 m ρ) c).trans ?_)
  rw [show V3 m ρ c main_v41 = _ from h3_v41 m ρ c, show V3 m ρ c main_v28 = _ from h3_v28 m ρ c]
  refine (v48_eq (a0 m c) (a1 m c) (a3 m c) (a4 m c) (V3 m ρ c main_v27) ?_ (V3 m ρ c main_v42) ?_).symm
  · intro n
    rw [show V3 m ρ c main_v27 = _ from h3_v27 m ρ c]
    exact Cert.KBodyLayout.shapeCast_a_a1_apply _ _ n 0
  · intro j
    rw [show V3 m ρ c main_v42 = _ from h3_v42 m ρ c]
    exact shapeCast_a_1a_apply _ _ 0 j

/-! ## After the second feature transform -/

theorem h5_v1 (c : Dev nD) : W5 m ρ c (Proc.devRef .tc main_v1) = val_main_v1 (F := Ideal) (a1 m c) :=
  (W5_of_ne m ρ c main_v1 (by decide)).trans (h4_v1 m ρ c)
theorem h5_v3 (c : Dev nD) : W5 m ρ c (Proc.devRef .tc main_v3) = val_main_v3 (F := Ideal) (a1 m c) :=
  (W5_of_ne m ρ c main_v3 (by decide)).trans (h4_v3 m ρ c)
theorem h5_v25 (c : Dev nD) : W5 m ρ c (Proc.devRef .tc main_v25) = val_main_v26 (F := Ideal) (a1 m c) :=
  (W5_of_ne m ρ c main_v25 (by decide)).trans (h4_v25 m ρ c)
theorem h5_v27 (c : Dev nD) : W5 m ρ c (Proc.devRef .tc main_v27) = shapeCast S100000x1 (val_main_v40 (F := Ideal) (a1 m c)) shapeCasts_S100000_S100000x1 :=
  (W5_of_ne m ρ c main_v27 (by decide)).trans (h4_v27 m ρ c)
theorem h5_arg6 (c : Dev nD) : W5 m ρ c (Proc.devRef .tc main_arg6) = a6 m c :=
  (W5_of_ne m ρ c main_arg6 (by decide)).trans (h4_arg6 m ρ c)

/-- The second transformed features are the reference's second product. -/
theorem h5_v44 (c : Dev nD) : W5 m ρ c (Proc.devRef .tc main_v44) = val_main_v49 (F := Ideal) (a0 m c) (a1 m c) (a3 m c) (a4 m c) (a5 m c) := by
  refine (W5_arr m ρ c 2).trans ((Reg2.final (V4 m ρ) c).trans ?_)
  rw [show V4 m ρ c main_v43 = _ from h4_v43 m ρ c, show V4 m ρ c main_arg5 = a5 m c from h4_arg5 m ρ c]
  exact (v49_eq _ _ _ _ _).symm

/-! ## After the second aggregation's host stretch -/

theorem h6_v27 (c : Dev nD) : W6 m ρ c (Proc.devRef .tc main_v27) = shapeCast S100000x1 (val_main_v40 (F := Ideal) (a1 m c)) shapeCasts_S100000_S100000x1 := by
  show StableHlo.after hostOps3 (W5 m ρ c) (Proc.devRef .tc main_v27) = _
  after_results_simp
  exact h5_v27 m ρ c
theorem h6_v44 (c : Dev nD) : W6 m ρ c (Proc.devRef .tc main_v44) = val_main_v49 (F := Ideal) (a0 m c) (a1 m c) (a3 m c) (a4 m c) (a5 m c) := by
  show StableHlo.after hostOps3 (W5 m ρ c) (Proc.devRef .tc main_v44) = _
  after_results_simp
  exact h5_v44 m ρ c

/-- The aggregated messages of the second layer: the same chain on equal operands; the reference recomputes the edge
    weights, to the same term. -/
theorem h6_v57 (c : Dev nD) : W6 m ρ c (Proc.devRef .tc main_v57)
    = val_main_v84 (F := Ideal) (a0 m c) (a1 m c) (a3 m c) (a4 m c) (a5 m c) := by
  show StableHlo.after hostOps3 (W5 m ρ c) (Proc.devRef .tc main_v57) = _
  after_results_simp
  rw [h5_v44 m ρ c, h5_v1 m ρ c, h5_v3 m ρ c, h5_v25 m ρ c, ← norm_again (a1 m c)]
  unfold val_main_v84 val_main_v83 val_main_v82 val_main_cst_17 val_main_v81 val_main_v80 val_main_v72 val_main_v79 val_main_v78 val_main_v77 val_main_v74 val_main_v76 val_main_v73 val_main_v75 val_main_c_15 val_main_c_16
  rfl
/-- The second bias as a row. -/
theorem h6_v58 (c : Dev nD) : W6 m ρ c (Proc.devRef .tc main_v58) = shapeCast S1x128 (a6 m c) shapeCasts_S128_S1x128 := by
  show StableHlo.after hostOps3 (W5 m ρ c) (Proc.devRef .tc main_v58) = _
  after_results_simp
  rw [h5_arg6 m ρ c]
  rfl

/-! ## After the second combine -/

/-- The second layer's output is the reference's. -/
theorem h7_v59 (c : Dev nD) : W7 m ρ c (Proc.devRef .tc main_v59) = val_main_v93 (F := Ideal) (a0 m c) (a1 m c) (a3 m c) (a4 m c) (a5 m c) (a6 m c) := by
  refine (W7_arr m ρ c 4).trans ((Reg3.final (V6 m ρ) c).trans ?_)
  rw [show V6 m ρ c main_v57 = _ from h6_v57 m ρ c, show V6 m ρ c main_v44 = _ from h6_v44 m ρ c]
  refine (v93_eq (a0 m c) (a1 m c) (a3 m c) (a4 m c) (a5 m c) (a6 m c) (V6 m ρ c main_v27) ?_ (V6 m ρ c main_v58) ?_).symm
  · intro n
    rw [show V6 m ρ c main_v27 = _ from h6_v27 m ρ c, dinv2_again]
    exact Cert.KBodyLayout.shapeCast_a_a1_apply _ _ n 0
  · intro j
    rw [show V6 m ρ c main_v58 = _ from h6_v58 m ρ c]
    exact shapeCast_a_1a_apply _ _ 0 j

end Cert.KernelIdeal.Fold

end
-- ==== Proof.FoldB.lean ====
/-
  The second half of the idealized kernel program's fold: the pooled sums, the division by the graph sizes, and the
  head. The arguments the late stages read are followed back from the end of the fold, where they are known to be
  the launch memory's.
-/
import proofs.«171345_j52037823758431_1_alg».proof.Proof.Gen.KernelIdeal.Frame
import proofs.«171345_j52037823758431_1_alg».proof.Proof.Gen.ReferenceIdeal.Read
import proofs.«171345_j52037823758431_1_alg».proof.Proof.Spec
import proofs.«171345_j52037823758431_1_alg».proof.Proof.Region4
import proofs.«171345_j52037823758431_1_alg».proof.Proof.Region5
import proofs.«171345_j52037823758431_1_alg».proof.Proof.RefSide
import proofs.«171345_j52037823758431_1_alg».proof.Proof.LibKernelLayout
import proofs.«171345_j52037823758431_1_alg».proof.Proof.FoldA
import Idealize.ShloMosaic.Lib.StableHlo.Run
import Idealize.ShloMosaic.Lib.ValueLayout

set_option maxRecDepth 16384

noncomputable section

namespace Cert.KernelIdeal.Fold

open Cert.KernelIdeal Cert.KernelIdeal.Gen Cert.Gcn Cert.ReferenceIdeal.Read Cert.ReferenceIdeal.RefValue
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (ρ : Dev nD → PrngReg)

/-! ## The arguments the late stages read, followed back from the end -/

theorem h10_arg2 (c : Dev nD) : W10 m ρ c (Proc.devRef .tc main_arg2) = a2 m c :=
  (W11_of_ne m ρ c main_arg2 (by decide)).symm.trans (W11_main_arg2 m ρ c)
theorem h10_arg8 (c : Dev nD) : W10 m ρ c (Proc.devRef .tc main_arg8) = a8 m c :=
  (W11_of_ne m ρ c main_arg8 (by decide)).symm.trans (W11_main_arg8 m ρ c)
theorem h10_arg10 (c : Dev nD) : W10 m ρ c (Proc.devRef .tc main_arg10) = a10 m c :=
  (W11_of_ne m ρ c main_arg10 (by decide)).symm.trans (W11_main_arg10 m ρ c)
/-- The head's weights are inputs of the last launch, which leaves an input array as it found it. -/
theorem h10_arg7 (c : Dev nD) : W10 m ρ c (Proc.devRef .tc main_arg7) = a7 m c :=
  ((W11_arr m ρ c 1).trans (((dat5 (V10 m ρ) c).arrAt_in 1 rfl _).trans (A_eq5 (V10 m ρ) c 1))).symm.trans (W11_main_arg7 m ρ c)
theorem h10_arg9 (c : Dev nD) : W10 m ρ c (Proc.devRef .tc main_arg9) = a9 m c :=
  ((W11_arr m ρ c 3).trans (((dat5 (V10 m ρ) c).arrAt_in 3 rfl _).trans (A_eq5 (V10 m ρ) c 3))).symm.trans (W11_main_arg9 m ρ c)
theorem h9_arg2 (c : Dev nD) : W9 m ρ c (Proc.devRef .tc main_arg2) = a2 m c := by
  have e : W10 m ρ c (Proc.devRef .tc main_arg2) = W9 m ρ c (Proc.devRef .tc main_arg2) := by
    show StableHlo.after hostOps5 (W9 m ρ c) (Proc.devRef .tc main_arg2) = _
    after_results_simp
  exact e.symm.trans (h10_arg2 m ρ c)
theorem h9_arg8 (c : Dev nD) : W9 m ρ c (Proc.devRef .tc main_arg8) = a8 m c := by
  have e : W10 m ρ c (Proc.devRef .tc main_arg8) = W9 m ρ c (Proc.devRef .tc main_arg8) := by
    show StableHlo.after hostOps5 (W9 m ρ c) (Proc.devRef .tc main_arg8) = _
    after_results_simp
  exact e.symm.trans (h10_arg8 m ρ c)
theorem h9_arg10 (c : Dev nD) : W9 m ρ c (Proc.devRef .tc main_arg10) = a10 m c := by
  have e : W10 m ρ c (Proc.devRef .tc main_arg10) = W9 m ρ c (Proc.devRef .tc main_arg10) := by
    show StableHlo.after hostOps5 (W9 m ρ c) (Proc.devRef .tc main_arg10) = _
    after_results_simp
  exact e.symm.trans (h10_arg10 m ρ c)
theorem h8_arg2 (c : Dev nD) : W8 m ρ c (Proc.devRef .tc main_arg2) = a2 m c :=
  (W9_of_ne m ρ c main_arg2 (by decide)).symm.trans (h9_arg2 m ρ c)
theorem h7_arg2 (c : Dev nD) : W7 m ρ c (Proc.devRef .tc main_arg2) = a2 m c := by
  have e : W8 m ρ c (Proc.devRef .tc main_arg2) = W7 m ρ c (Proc.devRef .tc main_arg2) := by
    show StableHlo.after hostOps4 (W7 m ρ c) (Proc.devRef .tc main_arg2) = _
    after_results_simp
  exact e.symm.trans (h8_arg2 m ρ c)

/-! ## After the host iota and reshapes -/

theorem h8_v59 (c : Dev nD) : W8 m ρ c (Proc.devRef .tc main_v59) = val_main_v93 (F := Ideal) (a0 m c) (a1 m c) (a3 m c) (a4 m c) (a5 m c) (a6 m c) := by
  show StableHlo.after hostOps4 (W7 m ρ c) (Proc.devRef .tc main_v59) = _
  after_results_simp
  exact h7_v59 m ρ c
/-- The graph numbers as a column. -/
theorem h8_v62 (c : Dev nD) : W8 m ρ c (Proc.devRef .tc main_v62) = shapeCast S100000x1 (a2 m c) shapeCasts_S100000_S100000x1 := by
  show StableHlo.after hostOps4 (W7 m ρ c) (Proc.devRef .tc main_v62) = _
  after_results_simp
  rw [h7_arg2 m ρ c]
  rfl
/-- The numbers `0 … 255` as a row. -/
theorem h8_v61 (c : Dev nD) : W8 m ρ c (Proc.devRef .tc main_v61) = shapeCast S1x256 (iotaInDim S256 32 0) shapeCasts_S256_S1x256 := by
  show StableHlo.after hostOps4 (W7 m ρ c) (Proc.devRef .tc main_v61) = _
  after_results_simp
  rfl

/-! ## After the pooling launch -/

/-- The pooled sums are the reference's segment sums. -/
theorem h9_v63 (c : Dev nD) : W9 m ρ c (Proc.devRef .tc main_v63) = val_main_v96 (F := Ideal) (a0 m c) (a1 m c) (a2 m c) (a3 m c) (a4 m c) (a5 m c) (a6 m c) := by
  refine (W9_arr m ρ c 3).trans ((Reg4.final (V8 m ρ) c ?_).trans ?_)
  · intro g
    rw [show V8 m ρ c main_v61 = _ from h8_v61 m ρ c]
    exact (shapeCast_a_1a_apply _ _ 0 g).trans rfl
  rw [show V8 m ρ c main_v59 = _ from h8_v59 m ρ c]
  refine (v96_eq (a0 m c) (a1 m c) (a2 m c) (a3 m c) (a4 m c) (a5 m c) (a6 m c) (V8 m ρ c main_v62) ?_).symm
  intro n
  rw [show V8 m ρ c main_v62 = _ from h8_v62 m ρ c]
  exact Cert.KBodyLayout.shapeCast_a_a1_apply _ _ n 0

/-! ## After the host counts and the division -/

/-- The graph means: the same count, maximum with one and division as the reference's, of equal operands. -/
theorem h10_v72 (c : Dev nD) : W10 m ρ c (Proc.devRef .tc main_v72) = val_main_v105 (F := Ideal) (a0 m c) (a1 m c) (a2 m c) (a3 m c) (a4 m c) (a5 m c) (a6 m c) := by
  show StableHlo.after hostOps5 (W9 m ρ c) (Proc.devRef .tc main_v72) = _
  after_results_simp
  rw [h9_v63 m ρ c, h9_arg2 m ρ c]
  unfold val_main_v105 val_main_v104 val_main_v103 val_main_v102 val_main_v100 val_main_v101 val_main_v98 val_main_v99 val_main_v97 val_main_cst_19 val_main_cst_20 val_main_cst_21
  rfl
theorem h10_v73 (c : Dev nD) : W10 m ρ c (Proc.devRef .tc main_v73) = shapeCast S1x128 (a8 m c) shapeCasts_S128_S1x128 := by
  show StableHlo.after hostOps5 (W9 m ρ c) (Proc.devRef .tc main_v73) = _
  after_results_simp
  rw [h9_arg8 m ρ c]
  rfl
theorem h10_v74 (c : Dev nD) : W10 m ρ c (Proc.devRef .tc main_v74) = shapeCast S1x32 (a10 m c) shapeCasts_S32_S1x32 := by
  show StableHlo.after hostOps5 (W9 m ρ c) (Proc.devRef .tc main_v74) = _
  after_results_simp
  rw [h9_arg10 m ρ c]
  rfl

/-! ## The result -/

/-- THE KERNEL PROGRAM'S RESULT is the reference's last stage of the same arguments. -/
theorem result_eq (c : Dev nD) : W11 m ρ c (Proc.devRef .tc main_v75)
    = val_main_v114 (F := Ideal) (a0 m c) (a1 m c) (a2 m c) (a3 m c) (a4 m c) (a5 m c) (a6 m c) (a7 m c) (a8 m c) (a9 m c) (a10 m c) := by
  refine (W11_arr m ρ c 5).trans ((Reg5.final (V10 m ρ) c).trans ?_)
  show addRow (mm (N := 256) (K := 128) (C := 32) (relu (addRow (mm (N := 256) (K := 128) (C := 128) (V10 m ρ c main_v72) (V10 m ρ c main_arg7)) (V10 m ρ c main_v73))) (V10 m ρ c main_arg9)) (V10 m ρ c main_v74) = _
  rw [show V10 m ρ c main_arg7 = a7 m c from h10_arg7 m ρ c, show V10 m ρ c main_arg9 = a9 m c from h10_arg9 m ρ c]
  refine (v114_eq (a0 m c) (a1 m c) (a2 m c) (a3 m c) (a4 m c) (a5 m c) (a6 m c) (a7 m c) (a8 m c) (a9 m c) (a10 m c) (V10 m ρ c main_v72) (h10_v72 m ρ c)
    (V10 m ρ c main_v73) ?_ (V10 m ρ c main_v74) ?_).symm
  · intro j
    rw [show V10 m ρ c main_v73 = _ from h10_v73 m ρ c]
    exact shapeCast_a_1a_apply _ _ 0 j
  · intro j
    rw [show V10 m ρ c main_v74 = _ from h10_v74 m ρ c]
    exact shapeCast_a_1a_apply _ _ 0 j

end Cert.KernelIdeal.Fold

end
-- ==== Proof.lean ====
/-
  A two-layer graph convolution with mean pooling and a two-layer head, as six kernel launches among host operations,
  against its plain reference. Both programs compute, from node features `x`, an edge list, graph numbers and the
  weights,

      hₗ = relu (Âhₗ₋₁Wₗ + bₗ)  (l = 1, 2; Â = D^(-1/2)(A + I)D^(-1/2) by gather, weight and scatter-add over the edges),
      g  = (segment sums of h₂ over the graph numbers) / max(graph sizes, 1),
      out = relu (g W₃ + b₃) W₄ + b₄.

  The kernel program tiles the two products `h W` and the two combine steps over 5000-row tiles, computes the segment
  sums as a product with a zero-one matrix accumulated over the 20 tiles, and the head in one launch; the gathers
  and scatter-adds stay on the host and are, operation for operation, the reference's. Over the extended reals a
  change of float format is the identity, a tiled product is the product, and the zero-one product is the segment sum
  because `0 · x = 0` and `1 · x = x` for every `x` and a finite sum may be regrouped; no finiteness of the inputs is
  used. The idealization rewrote nothing, so nothing is owed for it.

  The frames of the two kernel programs are the generated ones; the reference's frame is its generated run with the
  result dropped. For the equal results: the kernel program's run names its result array as the last stage of its
  fold (WholeRun), the fold is read back stage by stage to the reference's last stage of the same arguments (FoldA,
  FoldB, over Region0–5 and the reference's stages in RefSide), and the reference's run ends at that stage.
-/
import proofs.«171345_j52037823758431_1_alg».proof.Defs
import proofs.«171345_j52037823758431_1_alg».proof.Proof.Gen.Kernel
import proofs.«171345_j52037823758431_1_alg».proof.Proof.Gen.Kernel.Frame
import proofs.«171345_j52037823758431_1_alg».proof.Proof.Gen.KernelIdeal
import proofs.«171345_j52037823758431_1_alg».proof.Proof.Gen.KernelIdeal.Frame
import proofs.«171345_j52037823758431_1_alg».proof.Proof.Gen.ReferenceIdeal
import proofs.«171345_j52037823758431_1_alg».proof.Proof.Gen.Pre_finite_inputs
import proofs.«171345_j52037823758431_1_alg».proof.Proof.Gen.ReferenceIdeal.Run
import proofs.«171345_j52037823758431_1_alg».proof.Proof.Gen.ReferenceIdeal.Read
import proofs.«171345_j52037823758431_1_alg».proof.Proof.WholeRun
import proofs.«171345_j52037823758431_1_alg».proof.Proof.FoldB
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the kernel program at the
    last stage of its fold, which is the reference's last stage of the kernel's arguments, and the reference at its
    last stage of its own, equal, arguments. -/
theorem algebraic : Cert.algebraic_KernelIdeal_ReferenceIdeal := by
  intro m ρ m' ρ' _ hagree
  refine ⟨fun c => Cert.KernelIdeal.Gen.W11 m ρ c (Proc.devRef .tc Cert.KernelIdeal.main_v75),
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v114_eq, h0, h1, h2, h3, h4, h5, h6, h7, h8, h9, h10]
  exact (Cert.KernelIdeal.Fold.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
